-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x16x4 : Shape := ⟨3, ![131072, 16, 4]⟩
abbrev S131072 : Shape := ⟨1, ![131072]⟩
abbrev S_ : Shape := ⟨0, ![]⟩

class Facts : Prop where
  bcast_S_S131072x16x4 : S_.BroadcastsInDim S131072x16x4 (![] : Fin 0 → Fin S131072x16x4.rank)
  reducesTo_S131072x16x4_S_d0_1_2 : S131072x16x4.ReducesTo [0, 1, 2] S_
  h_S_ : 0 < S_.numel
  bcast_S_S131072 : S_.BroadcastsInDim S131072 (![] : Fin 0 → Fin S131072.rank)
  reducesTo_S131072_S_d0 : S131072.ReducesTo [0] S_

variable [Facts]

def fn_part1 {F : FTy → Type} [FloatOps F] (main_v13 : IVec S_ 1) (main_v16 : IVec S131072 1) : IVec S_ 1 :=
  let main_c_5 : IVec S_ 1 := constantI S_ 1 1#1
  let main_v17 : IVec S_ 1 := (fun x v => Host.reduce IntOp.andi x v reducesTo_S131072_S_d0 h_S_) main_v16 main_c_5
  let main_v18 : IVec S_ 1 := andi main_v13 main_v17
  main_v18

def fn {F : FTy → Type} [FloatOps F] (main_arg0 : FVec F S131072x16x4 .f32) (main_arg1 : FVec F S131072x16x4 .f32) (main_arg2 : FVec F S131072 .f32) (main_arg3 : FVec F S131072 .f32) : IVec S_ 1 :=
  let main_v0 : FVec F S131072x16x4 .f32 := Host.absf main_arg0
  let main_cst : FVec F S_ .f32 := constant S_ .f32 0x7F800000#32
  let main_v1 : FVec F S131072x16x4 .f32 := broadcastInDim S131072x16x4 ![] bcast_S_S131072x16x4 main_cst
  let main_v2 : IVec S131072x16x4 1 := cmpf .olt main_v0 main_v1
  let main_c : IVec S_ 1 := constantI S_ 1 1#1
  let main_v3 : IVec S_ 1 := (fun x v => Host.reduce IntOp.andi x v reducesTo_S131072x16x4_S_d0_1_2 h_S_) main_v2 main_c
  let main_v4 : FVec F S131072x16x4 .f32 := Host.absf main_arg1
  let main_cst_0 : FVec F S_ .f32 := constant S_ .f32 0x7F800000#32
  let main_v5 : FVec F S131072x16x4 .f32 := broadcastInDim S131072x16x4 ![] bcast_S_S131072x16x4 main_cst_0
  let main_v6 : IVec S131072x16x4 1 := cmpf .olt main_v4 main_v5
  let main_c_1 : IVec S_ 1 := constantI S_ 1 1#1
  let main_v7 : IVec S_ 1 := (fun x v => Host.reduce IntOp.andi x v reducesTo_S131072x16x4_S_d0_1_2 h_S_) main_v6 main_c_1
  let main_v8 : IVec S_ 1 := andi main_v3 main_v7
  let main_v9 : FVec F S131072 .f32 := Host.absf main_arg2
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S131072 .f32 := Host.absf main_arg3
  let main_cst_4 : FVec F S_ .f32 := constant S_ .f32 0x7F800000#32
  let main_v15 : FVec F S131072 .f32 := broadcastInDim S131072 ![] bcast_S_S131072 main_cst_4
  let main_v16 : IVec S131072 1 := cmpf .olt main_v14 main_v15
  fn_part1 (F := F) main_v13 main_v16
-- ==== Kernel.lean ====
abbrev S131072x16x4 : Shape := ⟨3, ![131072, 16, 4]⟩
abbrev S131072 : Shape := ⟨1, ![131072]⟩
abbrev S8192x16x64 : Shape := ⟨3, ![8192, 16, 64]⟩
abbrev S8192x16 : Shape := ⟨2, ![8192, 16]⟩
abbrev S8192x1 : Shape := ⟨2, ![8192, 1]⟩
abbrev S8192 : Shape := ⟨1, ![8192]⟩
abbrev S256x16x64 : Shape := ⟨3, ![256, 16, 64]⟩
abbrev S256x16 : Shape := ⟨2, ![256, 16]⟩
abbrev S256x1 : Shape := ⟨2, ![256, 1]⟩
abbrev S256x16x16 : Shape := ⟨3, ![256, 16, 16]⟩
abbrev S256x16x1 : Shape := ⟨3, ![256, 16, 1]⟩
abbrev S256x1x16 : Shape := ⟨3, ![256, 1, 16]⟩
abbrev S256 : Shape := ⟨1, ![256]⟩
abbrev S_ : Shape := ⟨0, ![]⟩

abbrev nBuf : Space → Nat
  | .hbm => 16
  | .vmem => 10
  | .smem => 0
  | _ => 0

abbrev bufTy : (tb : Table) → Fin (tcTables nBuf tb) → BufTy
  | .hbm, ⟨0, _⟩ => ⟨S131072x16x4, .f32⟩
  | .hbm, ⟨1, _⟩ => ⟨S131072x16x4, .f32⟩
  | .hbm, ⟨2, _⟩ => ⟨S131072, .f32⟩
  | .hbm, ⟨3, _⟩ => ⟨S131072, .f32⟩
  | .hbm, ⟨4, _⟩ => ⟨S8192x16x64, .f32⟩
  | .hbm, ⟨5, _⟩ => ⟨S8192x16x64, .f32⟩
  | .hbm, ⟨6, _⟩ => ⟨S8192x16, .f32⟩
  | .hbm, ⟨7, _⟩ => ⟨S8192x16, .f32⟩
  | .hbm, ⟨8, _⟩ => ⟨S8192x1, .f32⟩
  | .hbm, ⟨9, _⟩ => ⟨S8192, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S256x16x64, .f32⟩
  | .local _ .vmem, ⟨1, _⟩ => ⟨S256x16x64, .f32⟩
  | .local _ .vmem, ⟨2, _⟩ => ⟨S256x16x64, .f32⟩
  | .local _ .vmem, ⟨3, _⟩ => ⟨S256x16x64, .f32⟩
  | .local _ .vmem, ⟨4, _⟩ => ⟨S256x16, .f32⟩
  | .local _ .vmem, ⟨5, _⟩ => ⟨S256x16, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | _, _ => ⟨S131072x16x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S131072x16x4_S8192x16x64 : S131072x16x4.ShapeCasts S8192x16x64
  shapeCasts_S131072_S8192x16 : S131072.ShapeCasts S8192x16
  slices_S8192x16_S8192x1_0_0 : S8192x16.Slices ![0, 0] S8192x1
  shapeCasts_S8192x1_S8192 : S8192x1.ShapeCasts S8192
  shapeCasts_S8192_S8192x1 : S8192.ShapeCasts S8192x1
  inb_S256x16x64_S256x16x64_0_0_0 : ∀ a, (![0, 0, 0] : Fin 3 → Nat) a + S256x16x64.size a ≤ S256x16x64.size a
  h_S256x16x64 : 0 < S256x16x64.numel
  shapeCasts_S256x16x64_S256x16x64 : S256x16x64.ShapeCasts S256x16x64
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S256x1_S256x1_0_0 : ∀ a, (![0, 0] : Fin 2 → Nat) a + S256x1.size a ≤ S256x1.size a
  h_S256x1 : 0 < S256x1.numel
  shapeCasts_S256x1_S256x1 : S256x1.ShapeCasts S256x1
  reduces_S256x16x64_S256x16 : S256x16x64.Reduces [2] S256x16
  shapeCasts_S256x16_S256x16x1 : S256x16.ShapeCasts S256x16x1
  shapeCasts_S256x16_S256x1x16 : S256x16.ShapeCasts S256x1x16
  broadcasts_S256x16x1_S256x16x16 : S256x16x1.Broadcasts S256x16x16
  broadcasts_S256x1x16_S256x16x16 : S256x1x16.Broadcasts S256x16x16
  reduces_S256x16x16_S256x16 : S256x16x16.Reduces [2] S256x16
  reduces_S256x16_S256 : S256x16.Reduces [1] S256
  shapeCasts_S256_S256x1 : S256.ShapeCasts S256x1
  reducesTo_S8192x1_S_d0_1 : S8192x1.ReducesTo [0, 1] S_
  h_S_ : 0 < S_.numel
  dot_S256x16x64_S256x16x64_S256x16x16_2_2_1_1_0_0_wf : DotDims.WF S256x16x64 S256x16x64 S256x16x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x64.size a ≤ S8192x16x64.size a
  hwx0_0 : ∀ i : grid0.Coords, EltTy.bits .f32 = 32 ∨ (Rect.block (s := S8192x16x64) S256x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16x64.size a ≤ S8192x16x64.size a
  hwx0_1 : ∀ i : grid0.Coords, EltTy.bits .f32 = 32 ∨ (Rect.block (s := S8192x16x64) S256x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S8192x16.size a
  hwx0_2 : ∀ i : grid0.Coords, EltTy.bits .f32 = 32 ∨ (Rect.block (s := S8192x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)

variable [Facts₀]

def dot_S256x16x64_S256x16x64_S256x16x16_2_2_1_1_0_0 : DotDims S256x16x64 S256x16x64 S256x16x16 where
  lhsContracting := [2]
  rhsContracting := [2]
  lhsNonContracting := [1]
  rhsNonContracting := [1]
  lhsBatch := [0]
  rhsBatch := [0]
  wf := dot_S256x16x64_S256x16x64_S256x16x16_2_2_1_1_0_0_wf

abbrev win0_0 : Pipeline.Window sig grid0 :=
  Pipeline.Window.ofSpec (Memref.whole main_v0) S256x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x16x4 : Shape := ⟨3, ![131072, 16, 4]⟩
abbrev S131072 : Shape := ⟨1, ![131072]⟩
abbrev S8192x16x64 : Shape := ⟨3, ![8192, 16, 64]⟩
abbrev S8192x16 : Shape := ⟨2, ![8192, 16]⟩
abbrev S8192x1 : Shape := ⟨2, ![8192, 1]⟩
abbrev S8192 : Shape := ⟨1, ![8192]⟩
abbrev S8192x16x1x64 : Shape := ⟨4, ![8192, 16, 1, 64]⟩
abbrev S8192x1x16x64 : Shape := ⟨4, ![8192, 1, 16, 64]⟩
abbrev S8192x16x16x64 : Shape := ⟨4, ![8192, 16, 16, 64]⟩
abbrev S_ : Shape := ⟨0, ![]⟩
abbrev S8192x16x16 : Shape := ⟨3, ![8192, 16, 16]⟩
abbrev S8192x16x1 : Shape := ⟨3, ![8192, 16, 1]⟩

abbrev nBuf : Space → Nat
  | .hbm => 85
  | .vmem => 0
  | .smem => 0
  | _ => 0

abbrev bufTy : (tb : Table) → Fin (tcTables nBuf tb) → BufTy
  | .hbm, ⟨0, _⟩ => ⟨S131072x16x4, .f32⟩
  | .hbm, ⟨1, _⟩ => ⟨S131072x16x4, .f32⟩
  | .hbm, ⟨2, _⟩ => ⟨S131072, .f32⟩
  | .hbm, ⟨3, _⟩ => ⟨S131072, .f32⟩
  | .hbm, ⟨4, _⟩ => ⟨S8192x16x64, .f32⟩
  | .hbm, ⟨5, _⟩ => ⟨S8192x16x64, .f32⟩
  | .hbm, ⟨6, _⟩ => ⟨S8192x16, .f32⟩
  | .hbm, ⟨7, _⟩ => ⟨S8192x16, .f32⟩
  | .hbm, ⟨8, _⟩ => ⟨S8192x1, .f32⟩
  | .hbm, ⟨9, _⟩ => ⟨S8192, .f32⟩
  | .hbm, ⟨10, _⟩ => ⟨S8192x16x1x64, .f32⟩
  | .hbm, ⟨11, _⟩ => ⟨S8192x1x16x64, .f32⟩
  | .hbm, ⟨12, _⟩ => ⟨S8192x16x16x64, .f32⟩
  | .hbm, ⟨13, _⟩ => ⟨S8192x16x16x64, .f32⟩
  | .hbm, ⟨14, _⟩ => ⟨S8192x16x16x64, .f32⟩
  | .hbm, ⟨15, _⟩ => ⟨S8192x16x16x64, .f32⟩
  | .hbm, ⟨16, _⟩ => ⟨S_, .f32⟩
  | .hbm, ⟨17, _⟩ => ⟨S8192x16x16, .f32⟩
  | .hbm, ⟨18, _⟩ => ⟨S8192x16x16, .f32⟩
  | .hbm, ⟨19, _⟩ => ⟨S_, .f32⟩
  | .hbm, ⟨20, _⟩ => ⟨S8192x16x16, .f32⟩
  | .hbm, ⟨21, _⟩ => ⟨S8192x16x16, .f32⟩
  | .hbm, ⟨22, _⟩ => ⟨S8192x16x1, .f32⟩
  | .hbm, ⟨23, _⟩ => ⟨S8192x16x1, .f32⟩
  | .hbm, ⟨24, _⟩ => ⟨S8192x16x16, .f32⟩
  | .hbm, ⟨25, _⟩ => ⟨S8192x16x16, .f32⟩
  | .hbm, ⟨26, _⟩ => ⟨S_, .f32⟩
  | .hbm, ⟨27, _⟩ => ⟨S8192x16x16, .f32⟩
  | .hbm, ⟨28, _⟩ => ⟨S8192x16x16, .f32⟩
  | .hbm, ⟨29, _⟩ => ⟨S8192x16x16, .f32⟩
  | .hbm, ⟨30, _⟩ => ⟨S8192x16x1x64, .f32⟩
  | .hbm, ⟨31, _⟩ => ⟨S8192x1x16x64, .f32⟩
  | .hbm, ⟨32, _⟩ => ⟨S8192x16x16x64, .f32⟩
  | .hbm, ⟨33, _⟩ => ⟨S8192x16x16x64, .f32⟩
  | .hbm, ⟨34, _⟩ => ⟨S8192x16x16x64, .f32⟩
  | .hbm, ⟨35, _⟩ => ⟨S8192x16x16x64, .f32⟩
  | .hbm, ⟨36, _⟩ => ⟨S_, .f32⟩
  | .hbm, ⟨37, _⟩ => ⟨S8192x16x16, .f32⟩
  | .hbm, ⟨38, _⟩ => ⟨S8192x16x16, .f32⟩
  | .hbm, ⟨39, _⟩ => ⟨S_, .f32⟩
  | .hbm, ⟨40, _⟩ => ⟨S8192x16x16, .f32⟩
  | .hbm, ⟨41, _⟩ => ⟨S8192x16x16, .f32⟩
  | .hbm, ⟨42, _⟩ => ⟨S8192x16x1, .f32⟩
  | .hbm, ⟨43, _⟩ => ⟨S8192x16x1, .f32⟩
  | .hbm, ⟨44, _⟩ => ⟨S8192x16x16, .f32⟩
  | .hbm, ⟨45, _⟩ => ⟨S8192x16x16, .f32⟩
  | .hbm, ⟨46, _⟩ => ⟨S_, .f32⟩
  | .hbm, ⟨47, _⟩ => ⟨S8192x16x16, .f32⟩
  | .hbm, ⟨48, _⟩ => ⟨S8192x16x16, .f32⟩
  | .hbm, ⟨49, _⟩ => ⟨S8192x16x16, .f32⟩
  | .hbm, ⟨50, _⟩ => ⟨S8192x16x16, .f32⟩
  | .hbm, ⟨51, _⟩ => ⟨S8192x16x1x64, .f32⟩
  | .hbm, ⟨52, _⟩ => ⟨S8192x1x16x64, .f32⟩
  | .hbm, ⟨53, _⟩ => ⟨S8192x16x16x64, .f32⟩
  | .hbm, ⟨54, _⟩ => ⟨S8192x16x16x64, .f32⟩
  | .hbm, ⟨55, _⟩ => ⟨S8192x16x16x64, .f32⟩
  | .hbm, ⟨56, _⟩ => ⟨S8192x16x16x64, .f32⟩
  | .hbm, ⟨57, _⟩ => ⟨S_, .f32⟩
  | .hbm, ⟨58, _⟩ => ⟨S8192x16x16, .f32⟩
  | .hbm, ⟨59, _⟩ => ⟨S8192x16x16, .f32⟩
  | .hbm, ⟨60, _⟩ => ⟨S_, .f32⟩
  | .hbm, ⟨61, _⟩ => ⟨S8192x16x16, .f32⟩
  | .hbm, ⟨62, _⟩ => ⟨S8192x16x16, .f32⟩
  | .hbm, ⟨63, _⟩ => ⟨S8192x16x1, .f32⟩
  | .hbm, ⟨64, _⟩ => ⟨S8192x16x1, .f32⟩
  | .hbm, ⟨65, _⟩ => ⟨S8192x16x16, .f32⟩
  | .hbm, ⟨66, _⟩ => ⟨S8192x16x16, .f32⟩
  | .hbm, ⟨67, _⟩ => ⟨S_, .f32⟩
  | .hbm, ⟨68, _⟩ => ⟨S8192x16x16, .f32⟩
  | .hbm, ⟨69, _⟩ => ⟨S8192x16x16, .f32⟩
  | .hbm, ⟨70, _⟩ => ⟨S8192x16x16, .f32⟩
  | .hbm, ⟨71, _⟩ => ⟨S_, .f32⟩
  | .hbm, ⟨72, _⟩ => ⟨S8192x16x16, .f32⟩
  | .hbm, ⟨73, _⟩ => ⟨S8192x16x16, .f32⟩
  | .hbm, ⟨74, _⟩ => ⟨S8192x16x16, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S131072x16x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call2_v0 : Ref sig .tc := ⟨.hbm, 56, rfl⟩
abbrev main_call2_cst : Ref sig .tc := ⟨.hbm, 57, rfl⟩
abbrev main_call2_v1 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_6 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  shapeCasts_S131072x16x4_S8192x16x64 : S131072x16x4.ShapeCasts S8192x16x64
  shapeCasts_S131072_S8192x16 : S131072.ShapeCasts S8192x16
  slices_S8192x16_S8192x1_0_0 : S8192x16.Slices ![0, 0] S8192x1
  shapeCasts_S8192x1_S8192 : S8192x1.ShapeCasts S8192
  bcast_S8192x16x64_S8192x16x1x64_0_1_3 : S8192x16x64.BroadcastsInDim S8192x16x1x64 (![0, 1, 3] : Fin 3 → Fin S8192x16x1x64.rank)
  bcast_S8192x16x64_S8192x1x16x64_0_2_3 : S8192x16x64.BroadcastsInDim S8192x1x16x64 (![0, 2, 3] : Fin 3 → Fin S8192x1x16x64.rank)
  bcast_S8192x16x1x64_S8192x16x16x64_0_1_2_3 : S8192x16x1x64.BroadcastsInDim S8192x16x16x64 (![0, 1, 2, 3] : Fin 4 → Fin S8192x16x16x64.rank)
  bcast_S8192x1x16x64_S8192x16x16x64_0_1_2_3 : S8192x1x16x64.BroadcastsInDim S8192x16x16x64 (![0, 1, 2, 3] : Fin 4 → Fin S8192x16x16x64.rank)
  reducesTo_S8192x16x16x64_S8192x16x16_d3 : S8192x16x16x64.ReducesTo [3] S8192x16x16
  h_S_ : 0 < S_.numel
  bcast_S_S8192x16x16 : S_.BroadcastsInDim S8192x16x16 (![] : Fin 0 → Fin S8192x16x16.rank)
  bcast_S8192x16_S8192x16x1_0_1 : S8192x16.BroadcastsInDim S8192x16x1 (![0, 1] : Fin 2 → Fin S8192x16x1.rank)
  bcast_S8192x16x1_S8192x16x16_0_1_2 : S8192x16x1.BroadcastsInDim S8192x16x16 (![0, 1, 2] : Fin 3 → Fin S8192x16x16.rank)
  reducesTo_S8192x16x16_S8192_d1_2 : S8192x16x16.ReducesTo [1, 2] S8192
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.KernelBlocks.lean ====
/-
  The kernel's blocks as rows of its arrays.

  The grid has 32 points; point `t` works on the groups `256·t … 256·t + 255`: every window's block at
  point `t` starts at row `256·t` of its array and spans all the other axes.  So an entry of a block is
  the entry of the array 256·t rows further down, for each of the four input windows, and the output
  window's block at point `t` is rows `256·t … 256·t + 255` of the result column.
-/
import proofs.«140871_j44152263803555_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- Every window's block index at point `t` is `(t, 0, …)`: decided over the 32 points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- An entry of the first cloud's block at point `t` is the entry of its array 256·t rows further down. -/
theorem iblk0_apply (c : Dev nD) (t : Fin cfg0.N) (p : Fin 256) (i : Fin 16) (k : Fin 64) (g : Fin 8192)
    (hg : g.val = 256 * t.val + p.val) :
    (iblk m c 0 t : Vec F S256x16x64 .f32) (ix3 p i k) = (V m c main_v0 : S8192x16x64.Idx → Elt F .f32) (ix3 g i k) := by
  obtain ⟨e0, e1, e2, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 3) * 256 + 1 * p.val = g.val; rw [e0, hg]; omega
  | ⟨1, _⟩ => show win0_0.index t (1 : Fin 3) * 16 + 1 * i.val = i.val; rw [e1]; omega
  | ⟨2, _⟩ => show win0_0.index t (2 : Fin 3) * 64 + 1 * k.val = k.val; rw [e2]; omega

/-- The same for the second cloud. -/
theorem iblk1_apply (c : Dev nD) (t : Fin cfg0.N) (p : Fin 256) (i : Fin 16) (k : Fin 64) (g : Fin 8192)
    (hg : g.val = 256 * t.val + p.val) :
    (iblk m c 1 t : Vec F S256x16x64 .f32) (ix3 p i k) = (V m c main_v1 : S8192x16x64.Idx → Elt F .f32) (ix3 g i k) := by
  obtain ⟨-, -, -, e0, e1, e2, -⟩ := idx_facts t
  unfold iblk
  rw [View.read_apply]
  show V m c main_v1 _ = V m c main_v1 _
  refine congrArg (V m c main_v1) ?_
  funext a
  apply Fin.ext
  match a with
  | ⟨0, _⟩ => show win0_1.index t (0 : Fin 3) * 256 + 1 * p.val = g.val; rw [e0, hg]; omega
  | ⟨1, _⟩ => show win0_1.index t (1 : Fin 3) * 16 + 1 * i.val = i.val; rw [e1]; omega
  | ⟨2, _⟩ => show win0_1.index t (2 : Fin 3) * 64 + 1 * k.val = k.val; rw [e2]; omega

/-- The scales' block. -/
theorem iblk2_apply (c : Dev nD) (t : Fin cfg0.N) (p : Fin 256) (i : Fin 16) (g : Fin 8192)
    (hg : g.val = 256 * t.val + p.val) :
    (iblk m c 2 t : Vec F S256x16 .f32) (ix2 p i) = (V m c main_v2 : S8192x16.Idx → Elt F .f32) (ix2 g i) := by
  obtain ⟨-, -, -, -, -, -, e0, e1, -⟩ := idx_facts t
  unfold iblk
  rw [View.read_apply]
  show V m c main_v2 _ = V m c main_v2 _
  refine congrArg (V m c main_v2) ?_
  funext a
  apply Fin.ext
  match a with
  | ⟨0, _⟩ => show win0_2.index t (0 : Fin 2) * 256 + 1 * p.val = g.val; rw [e0, hg]; omega
  | ⟨1, _⟩ => show win0_2.index t (1 : Fin 2) * 16 + 1 * i.val = i.val; rw [e1]; omega

/-- The time weights' block. -/
theorem iblk3_apply (c : Dev nD) (t : Fin cfg0.N) (p : Fin 256) (g : Fin 8192)
    (hg : g.val = 256 * t.val + p.val) :
    (iblk m c 3 t : Vec F S256x1 .f32) (ix2 p (0 : Fin 1)) = (V m c main_v6 : S8192x1.Idx → Elt F .f32) (ix2 g (0 : Fin 1)) := by
  obtain ⟨-, -, -, -, -, -, -, -, e0, e1, -⟩ := idx_facts t
  unfold iblk
  rw [View.read_apply]
  show V m c main_v6 _ = V m c main_v6 _
  refine congrArg (V m c main_v6) ?_
  funext a
  apply Fin.ext
  match a with
  | ⟨0, _⟩ => show win0_3.index t (0 : Fin 2) * 256 + 1 * p.val = g.val; rw [e0, hg]; omega
  | ⟨1, _⟩ => show win0_3.index t (1 : Fin 2) * 1 + 1 * (0 : Fin 1).val = (0 : Fin 1).val; rw [e1]; rfl

end Cert.KernelIdeal.Blocks

end
-- ==== Proof.Spec.lean ====
/-
  The loss both programs compute, written over the real numbers.

  A group holds sixteen particles of sixty-four coordinates, in two clouds `a` and `b`, and one scale per
  particle.  For particles `u`, `v` and a scale `s` the Laplace kernel is `exp (-s · max ‖u - v‖ ε / 64)`;
  a group's term is the sum over all pairs `(i, j)` of `L(aᵢ,aⱼ) + L(bᵢ,bⱼ) - 2·L(aᵢ,bⱼ)` at the scale of
  particle `i`, weighted by the group's time weight; the loss is the mean of the group terms over
  the 8192 groups and the 256 pairs.

  Two spellings of it are given.  The first (`lapK`, `groupK`, `lossK`) takes the squared distance
  by the norms identity `|u|² + |v|² - 2⟨u,v⟩`, clamps it at zero, scales by the reciprocal `1/64`
  and divides once by `2097152 = 256 · 8192`.  The second (`lapR`, `groupR`, `lossR`) sums the squared
  differences, divides by `64`, by `256` per group and by `8192` at the end.  Over the reals they are one
  number (`lossK_eq_lossR`, proved in the module of the real algebra).
-/
import Mathlib.Analysis.SpecialFunctions.Exp
import Mathlib.Analysis.SpecialFunctions.Sqrt
import Mathlib.Algebra.BigOperators.Ring.Finset

noncomputable section

namespace Cert.Spec

open BigOperators

/-- The floor under every distance: the real number the word `0x3BC49BA6` denotes (the float nearest `0.006`). -/
def eps : ℝ := 12884902 / 2147483648

/-- The inner product of two particles. -/
def dotp (u v : Fin 64 → ℝ) : ℝ := ∑ k, u k * v k

/-- The Laplace kernel with the squared distance taken by the norms identity and clamped at zero. -/
def lapK (u v : Fin 64 → ℝ) (s : ℝ) : ℝ :=
  Real.exp ((0 - s) * max (Real.sqrt (max (dotp u u + dotp v v - 2 * dotp u v) 0)) eps * (1 / 64))

/-- One group's sum over all pairs, first spelling. -/
def groupK (a b : Fin 16 → Fin 64 → ℝ) (s : Fin 16 → ℝ) : ℝ :=
  ∑ i, ∑ j, (lapK (a i) (a j) (s i) + lapK (b i) (b j) (s i) - 2 * lapK (a i) (b j) (s i))

/-- The loss, first spelling: the weighted group sums, divided once by `256 · 8192`. -/
def lossK (x y : Fin 8192 → Fin 16 → Fin 64 → ℝ) (w : Fin 8192 → Fin 16 → ℝ) (t : Fin 8192 → ℝ) : ℝ :=
  (∑ g, groupK (x g) (y g) (w g) * t g) / 2097152

/-- The Laplace kernel with the squared distance as the sum of squared differences. -/
def lapR (u v : Fin 64 → ℝ) (s : ℝ) : ℝ :=
  Real.exp ((-s) * max (Real.sqrt (∑ k, (u k - v k) * (u k - v k))) eps / 64)

/-- One group's sum over all pairs, second spelling. -/
def groupR (a b : Fin 16 → Fin 64 → ℝ) (s : Fin 16 → ℝ) : ℝ :=
  ∑ i, ∑ j, (lapR (a i) (a j) (s i) + lapR (b i) (b j) (s i) - 2 * lapR (a i) (b j) (s i))

/-- The loss, second spelling: each weighted group sum divided by `256`, their total by `8192`. -/
def lossR (x y : Fin 8192 → Fin 16 → Fin 64 → ℝ) (w : Fin 8192 → Fin 16 → ℝ) (t : Fin 8192 → ℝ) : ℝ :=
  (∑ g, groupR (x g) (y g) (w g) * t g / 256) / 8192

end Cert.Spec

end
-- ==== Proof.Consts.lean ====
/-
  The float words the two programs spell, as the extended reals they denote: zero, two, the
  reciprocal `1/64` and the divisors `64`, `256`, `8192`, `2097152` are exact dyadic numbers, and the
  distance floor `0x3BC49BA6` is the dyadic `12884902 / 2³¹` (the float nearest `0.006`).  Every other
  module reads its constants here.
-/
import Idealize.ShloMosaic.PureOps.Ideal
import proofs.«140871_j44152263803555_2_alg».proof.Proof.Spec

noncomputable section

namespace Cert.Consts

open Idealize.ShloMosaic

theorem ofBits_zero : Ideal.ofBits .f32 0x00000000#32 = ((0 : ℝ) : EReal) := by
  simp [Ideal.ofBits, Ideal.ieee]

theorem ofBits_two : Ideal.ofBits .f32 0x40000000#32 = ((2 : ℝ) : EReal) := by
  simp [Ideal.ofBits, Ideal.ieee, -EReal.coe_mul]; norm_num

theorem ofBits_inv64 : Ideal.ofBits .f32 0x3C800000#32 = ((1 / 64 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

theorem ofBits_2097152 : Ideal.ofBits .f32 0x4A000000#32 = ((2097152 : ℝ) : EReal) := by
  simp [Ideal.ofBits, Ideal.ieee, -EReal.coe_mul]; norm_num

theorem ofBits_eps : Ideal.ofBits .f32 0x3BC49BA6#32 = ((Cert.Spec.eps : ℝ) : EReal) := by
  unfold Cert.Spec.eps
  simp [Ideal.ofBits, Ideal.ieee, -EReal.coe_mul]; norm_num

end Cert.Consts

end
-- ==== Proof.LibGroupedLanes.lean ====
/-
  A matrix whose columns come in equal groups: an [a, n] array with n = b · c read as [a, b, c] — row p, group g,
  lane l sits at column g · c + l — and the operations a per-group statistic is built from, each read at an index
  given by coordinates:
  • the cast [a, n] → [a, b, c] and the cast back (`split_apply`, `merge_apply`);
  • the sum over the lanes of each group at the extended reals (`lanesum_apply`);
  • a per-group value [a, b] kept with a unit lane axis, [a, b, 1] (`keep_apply`), and spread back over the lanes,
    [a, b, 1] → [a, b, c] (`spread_apply`).
  Everything is stated for arbitrary extents.
-/
import Idealize.ShloMosaic.Lib.Pipeline.Value
import Idealize.ShloMosaic.Lib.ValueIdx
import Idealize.ShloMosaic.PureOps.Ideal.Laws

namespace Cert.Lib.GroupedLanes

open Idealize.ShloMosaic Idealize.ShloMosaic.ValueIdx

variable {α : Type} {a b c n : ℕ}

/-- An [a, n] array cast to [a, b, c] reads, at (p, g, l), the operand at (p, q) where q = g · c + l. -/
theorem split_apply (x : (⟨2, ![a, n]⟩ : Shape).Idx → α) (h : (⟨2, ![a, n]⟩ : Shape).ShapeCasts ⟨3, ![a, b, c]⟩)
    (hn : n = b * c) (p : Fin a) (g : Fin b) (l : Fin c) (q : Fin n) (hq : q.val = g.val * c + l.val) :
    shapeCast ⟨3, ![a, b, c]⟩ x h (ix3 p g l) = x (ix2 p q) :=
  shapeCast_apply x h _ _ (by
    rw [Shape.rowMajor_val_two, Shape.rowMajor_val_three]
    show p.val * n + q.val = (p.val * b + g.val) * c + l.val
    rw [hq, hn]; ring)

/-- An [a, b, c] array cast to [a, n] reads, at (p, q) with q = g · c + l, the operand at (p, g, l). -/
theorem merge_apply (x : (⟨3, ![a, b, c]⟩ : Shape).Idx → α) (h : (⟨3, ![a, b, c]⟩ : Shape).ShapeCasts ⟨2, ![a, n]⟩)
    (hn : n = b * c) (p : Fin a) (q : Fin n) (g : Fin b) (l : Fin c) (hq : q.val = g.val * c + l.val) :
    shapeCast ⟨2, ![a, n]⟩ x h (ix2 p q) = x (ix3 p g l) :=
  shapeCast_apply x h _ _ (by
    rw [Shape.rowMajor_val_two, Shape.rowMajor_val_three]
    show (p.val * b + g.val) * c + l.val = p.val * n + q.val
    rw [hq, hn]; ring)

/-- An [a, b] array cast to [a, b, 1] reads, at (p, g, u), the operand at (p, g), whatever the unit coordinate. -/
theorem keep_apply (x : (⟨2, ![a, b]⟩ : Shape).Idx → α) (h : (⟨2, ![a, b]⟩ : Shape).ShapeCasts ⟨3, ![a, b, 1]⟩)
    (p : Fin a) (g : Fin b) (u : Fin 1) : shapeCast ⟨3, ![a, b, 1]⟩ x h (ix3 p g u) = x (ix2 p g) :=
  shapeCast_apply x h _ _ (by
    have hu : u.val = 0 := by omega
    rw [Shape.rowMajor_val_two, Shape.rowMajor_val_three]
    show p.val * b + g.val = (p.val * b + g.val) * 1 + u.val
    rw [hu, Nat.mul_one, Nat.add_zero])

/-- An [a, b, 1] array broadcast to [a, b, c] reads, at (p, g, l), the operand at (p, g, 0). -/
theorem spread_apply (x : (⟨3, ![a, b, 1]⟩ : Shape).Idx → α) (h : (⟨3, ![a, b, 1]⟩ : Shape).Broadcasts ⟨3, ![a, b, c]⟩)
    (p : Fin a) (g : Fin b) (l : Fin c) :
    broadcastTo ⟨3, ![a, b, c]⟩ x h (ix3 p g l) = x (ix3 p g (0 : Fin 1)) := by
  refine broadcastTo_apply x h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- The sum over the lanes: a `vector.multi_reduction <add>` over the last axis of an [a, b, c] array of extended
    reals reads, at (p, g), the sum over l of the operand at (p, g, l). (The accumulator's side condition is typed as a
    printed program's own proof of it is: the zero word equals itself.) -/
theorem lanesum_apply (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (g : Fin b) :
    multiReduction .add [2] ⟨2, ![a, b]⟩ src 0x00000000#32 h hφ hacc (ix2 p g) = ∑ l : Fin c, src (ix3 p g l) := by
  refine (Ideal.multiReduction_add_single src 0x00000000#32 h hφ hacc (ix2 p g)).trans ?_
  refine Finset.sum_congr rfl fun l _ => congrArg src ?_
  funext ax
  match ax with
  | ⟨0, _⟩ => rfl
  | ⟨1, _⟩ => rfl
  | ⟨2, _⟩ => rfl

end Cert.Lib.GroupedLanes
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«140871_j44152263803555_2_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.KernelBody.lean ====
/-
  One group's value in the kernel body, at real-valued blocks.

  The body takes, for each row `p` of a block, sixteen particles of sixty-four coordinates in two clouds, one scale
  per particle and one weight.  It forms the squared norms (a lane sum of squares), the three tables of inner
  products (a batched product of each stack with a transposed stack), the squared distances by the norms identity
  `|u|² + |v|² - 2⟨u,v⟩`, and from them the Laplace terms `exp ((0 - s) · max (√(max d 0)) ε · (1/64))`; the stored
  value is the sum over all pairs of `L(aᵢ,aⱼ) + L(bᵢ,bⱼ) - 2·L(aᵢ,bⱼ)`, times the weight.  When the blocks hold casts
  of reals every one of these steps stays among the casts of reals, and the stored value is the cast of the
  specification's group term.
-/
import proofs.«140871_j44152263803555_2_alg».proof.Proof.Gen.KernelIdeal.Skeleton
import proofs.«140871_j44152263803555_2_alg».proof.Proof.Spec
import proofs.«140871_j44152263803555_2_alg».proof.Proof.Consts
import proofs.«140871_j44152263803555_2_alg».proof.Proof.LibGroupedLanes
import proofs.«140871_j44152263803555_2_alg».proof.Proof.LibRowSum
import proofs.«140871_j44152263803555_2_alg».proof.Proof.LibLayout
import proofs.«140871_j44152263803555_2_alg».proof.Proof.LibRealSums
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-- The batched product: member p of the left stack times the transpose of member p of the right stack. -/
theorem bmm_apply (prec : Option ContractPrecision) (A B : FVec Ideal S256x16x64 .f32)
    (p : Fin 256) (i j : Fin 16) :
    matmul (F := Ideal) dot_S256x16x64_S256x16x64_S256x16x16_2_2_1_1_0_0 prec A B
        (constant (F := Ideal) S256x16x16 .f32 0x00000000#32) (ix3 p i j)
      = ∑ k : Fin 64, A (ix3 p i k) * B (ix3 p j k) := by
  show FloatOps.matmul _ prec A B _ (ix3 p i j) = _
  rw [Ideal.matmul_constant_zero_apply,
    ← Equiv.sum_comp (contrEquiv1 dot_S256x16x64_S256x16x64_S256x16x16_2_2_1_1_0_0 64 rfl rfl).symm]
  refine Finset.sum_congr rfl fun c _ => ?_
  have c3 := contrEquiv1_symm_val dot_S256x16x64_S256x16x64_S256x16x16_2_2_1_1_0_0 64 rfl rfl c
  have l3 : dot_S256x16x64_S256x16x64_S256x16x16_2_2_1_1_0_0.lhsIdx (ix3 p i j)
      ((contrEquiv1 _ 64 rfl rfl).symm c) = ix3 p i c := by
    funext ax; apply Fin.ext
    match ax with
    | ⟨0, _⟩ => simp [DotDims.lhsIdx, dot_S256x16x64_S256x16x64_S256x16x16_2_2_1_1_0_0]; rfl
    | ⟨1, _⟩ => simp [DotDims.lhsIdx, dot_S256x16x64_S256x16x64_S256x16x16_2_2_1_1_0_0]; rfl
    | ⟨2, _⟩ => simp [DotDims.lhsIdx, dot_S256x16x64_S256x16x64_S256x16x16_2_2_1_1_0_0]; exact c3
  have r3 : dot_S256x16x64_S256x16x64_S256x16x16_2_2_1_1_0_0.rhsIdx (ix3 p i j)
      ((contrEquiv1 _ 64 rfl rfl).symm c) = ix3 p j c := by
    funext ax; apply Fin.ext
    match ax with
    | ⟨0, _⟩ => simp [DotDims.rhsIdx, dot_S256x16x64_S256x16x64_S256x16x16_2_2_1_1_0_0]; rfl
    | ⟨1, _⟩ => simp [DotDims.rhsIdx, dot_S256x16x64_S256x16x64_S256x16x16_2_2_1_1_0_0]; rfl
    | ⟨2, _⟩ => simp [DotDims.rhsIdx, dot_S256x16x64_S256x16x64_S256x16x16_2_2_1_1_0_0]; exact c3
  rw [l3, r3]

/-! ### Casts of reals through the pointwise operations -/

/-- The maximum of two real casts is the cast of the maximum. -/
theorem max_coe (a b : ℝ) : max ((a : ℝ) : EReal) ((b : ℝ) : EReal) = ((max a b : ℝ) : EReal) :=
  (EReal.coe_strictMono.monotone.map_max).symm

/-- The square root of the cast of a nonnegative real is the cast of its real square root. -/
theorem sqrt_coe_nonneg (r : ℝ) (h : 0 ≤ r) : Ideal.sqrt ((r : ℝ) : EReal) = ((Real.sqrt r : ℝ) : EReal) := by
  rw [Ideal.sqrt_coe, if_neg (not_lt.mpr h)]

/-- One Laplace term at real arguments: scale `w`, squared distance `d`. -/
def lapD (w d : ℝ) : ℝ := Real.exp ((0 - w) * max (Real.sqrt (max d 0)) Cert.Spec.eps * (1 / 64))

/-- The Laplace term computed in the extended reals from real casts is the cast of the real Laplace term. -/
theorem lap_coe (w d : ℝ) :
    Ideal.exp (((((0 : ℝ) : EReal) - ((w : ℝ) : EReal))
        * max (Ideal.sqrt (max ((d : ℝ) : EReal) ((0 : ℝ) : EReal))) ((Cert.Spec.eps : ℝ) : EReal))
        * ((1 / 64 : ℝ) : EReal))
      = ((lapD w d : ℝ) : EReal) := by
  rw [max_coe, sqrt_coe_nonneg _ (le_max_right _ _), max_coe, ← EReal.coe_sub, ← EReal.coe_mul, ← EReal.coe_mul,
    Ideal.exp_coe]
  rfl

/-- One Laplace branch of the body at an index: the scale of particle `i` spread over the pairs, times the floored
    distance, times `1/64`, exponentiated. -/
theorem lapvec_apply (W : FVec Ideal S256x16 .f32) (D Z0 : FVec Ideal S256x16x16 .f32) (c0 : Ideal .f32)
    (w d : ℝ) (p : Fin 256) (i j : Fin 16)
    (hw : W (ix2 p i) = ((w : ℝ) : EReal)) (hd : D (ix3 p i j) = ((d : ℝ) : EReal))
    (hz : Z0 (ix3 p i j) = ((0 : ℝ) : EReal)) (hc0 : c0 = ((0 : ℝ) : EReal)) :
    exp (mulf (mulf (broadcastTo S256x16x16 (subf (broadcast S256x16x1 c0)
            (shapeCast S256x16x1 W shapeCasts_S256x16_S256x16x1)) broadcasts_S256x16x1_S256x16x16)
          (maximumf (sqrt (maximumf D Z0)) (broadcast S256x16x16 (Scalar.ofBits (F := Ideal) .f32 0x3BC49BA6#32))))
        (broadcast S256x16x16 (Scalar.ofBits (F := Ideal) .f32 0x3C800000#32))) (ix3 p i j)
      = ((lapD w d : ℝ) : EReal) := by
  have hb : broadcastTo S256x16x16 (subf (broadcast S256x16x1 c0)
      (shapeCast S256x16x1 W shapeCasts_S256x16_S256x16x1)) broadcasts_S256x16x1_S256x16x16 (ix3 p i j)
      = ((0 : ℝ) : EReal) - ((w : ℝ) : EReal) := by
    rw [Cert.Lib.GroupedLanes.spread_apply, subf_apply, broadcast_apply, Cert.Lib.GroupedLanes.keep_apply, hw, hc0]
  show Ideal.exp ((broadcastTo S256x16x16 (subf (broadcast S256x16x1 c0)
      (shapeCast S256x16x1 W shapeCasts_S256x16_S256x16x1)) broadcasts_S256x16x1_S256x16x16 (ix3 p i j)
      * max (Ideal.sqrt (max (D (ix3 p i j)) (Z0 (ix3 p i j)))) (Ideal.ofBits .f32 0x3BC49BA6#32))
      * Ideal.ofBits .f32 0x3C800000#32) = _
  rw [hb, hd, hz, Cert.Consts.ofBits_eps, Cert.Consts.ofBits_inv64]
  exact lap_coe w d

/-! ### The squared norms, the inner products, the squared distances -/

/-- The squared norm of particle `i` of row `p`: the lane sum of the squares. -/
theorem normsq_apply (A : Vec Ideal S256x16x64 .f32) (ar : Fin 256 → Fin 16 → Fin 64 → ℝ)
    (hA : ∀ p i k, A (ix3 p i k) = ((ar p i k : ℝ) : EReal)) (p : Fin 256) (i : Fin 16) :
    k0_pay5 (F := Ideal) A (ix2 p i) = ((Cert.Spec.dotp (ar p i) (ar p i) : ℝ) : EReal) := by
  show multiReduction (F := Ideal) .add [2] S256x16
      (mulf (shapeCast S256x16x64 A shapeCasts_S256x16x64_S256x16x64)
        (shapeCast S256x16x64 A shapeCasts_S256x16x64_S256x16x64))
      0x00000000#32 reduces_S256x16x64_S256x16 (.inl rfl) rfl (ix2 p i) = _
  rw [shapeCast_self, Cert.Lib.GroupedLanes.lanesum_apply]
  unfold Cert.Spec.dotp
  rw [Cert.RealSums.coe_sum]
  refine Finset.sum_congr rfl fun k _ => ?_
  rw [mulf_apply, hA, EReal.coe_mul]

/-- The inner product of particle `i` of the left stack with particle `j` of the right one, within row `p`. -/
theorem gram_apply (A B : Vec Ideal S256x16x64 .f32) (ar br : Fin 256 → Fin 16 → Fin 64 → ℝ)
    (hA : ∀ p i k, A (ix3 p i k) = ((ar p i k : ℝ) : EReal))
    (hB : ∀ p i k, B (ix3 p i k) = ((br p i k : ℝ) : EReal)) (p : Fin 256) (i j : Fin 16) :
    matmul (F := Ideal) dot_S256x16x64_S256x16x64_S256x16x16_2_2_1_1_0_0 (some .fp32) (k0_pay1 A) (k0_pay2 B)
        (constant (F := Ideal) S256x16x16 .f32 0x00000000#32) (ix3 p i j)
      = ((Cert.Spec.dotp (ar p i) (br p j) : ℝ) : EReal) := by
  have e1 : k0_pay1 (F := Ideal) A = A := shapeCast_self A _
  have e2 : k0_pay2 (F := Ideal) B = B := shapeCast_self B _
  rw [e1, e2, bmm_apply]
  unfold Cert.Spec.dotp
  rw [Cert.RealSums.coe_sum]
  refine Finset.sum_congr rfl fun k _ => ?_
  rw [hA, hB, EReal.coe_mul]

/-- The squared distance between particle `i` of the left stack and particle `j` of the right one, by the norms
    identity. -/
theorem d2_apply (A B : Vec Ideal S256x16x64 .f32) (ar br : Fin 256 → Fin 16 → Fin 64 → ℝ)
    (hA : ∀ p i k, A (ix3 p i k) = ((ar p i k : ℝ) : EReal))
    (hB : ∀ p i k, B (ix3 p i k) = ((br p i k : ℝ) : EReal)) (p : Fin 256) (i j : Fin 16) :
    k0_pay9 (F := Ideal) A B (ix3 p i j)
      = ((Cert.Spec.dotp (ar p i) (ar p i) + Cert.Spec.dotp (br p j) (br p j)
          - 2 * Cert.Spec.dotp (ar p i) (br p j) : ℝ) : EReal) := by
  show (broadcastTo S256x16x16 (shapeCast S256x16x1 (k0_pay5 (F := Ideal) A) shapeCasts_S256x16_S256x16x1)
          broadcasts_S256x16x1_S256x16x16 (ix3 p i j)
        + broadcastTo S256x16x16 (shapeCast S256x1x16 (k0_pay5 (F := Ideal) B) shapeCasts_S256x16_S256x1x16)
          broadcasts_S256x1x16_S256x16x16 (ix3 p i j))
      - Ideal.ofBits .f32 0x40000000#32
        * matmul (F := Ideal) dot_S256x16x64_S256x16x64_S256x16x16_2_2_1_1_0_0 (some .fp32) (k0_pay1 A) (k0_pay2 B)
            (constant (F := Ideal) S256x16x16 .f32 0x00000000#32) (ix3 p i j) = _
  rw [Cert.Lib.GroupedLanes.spread_apply, Cert.Lib.GroupedLanes.keep_apply, Cert.LibLayout.keep_apply,
    normsq_apply A ar hA, normsq_apply B br hB, gram_apply A B ar br hA hB, Cert.Consts.ofBits_two,
    ← EReal.coe_add, ← EReal.coe_mul, ← EReal.coe_sub]

/-! ### The tail: the pair terms, their sum over a row, the weight -/

/-- The body's stored value at row `p`, from the values of its six operands at that row. -/
theorem tail_apply (W : FVec Ideal S256x16 .f32) (T : FVec Ideal S256x1 .f32) (D7 D8 D9 Z : FVec Ideal S256x16x16 .f32)
    (w : Fin 16 → ℝ) (t : ℝ) (d7 d8 d9 : Fin 16 → Fin 16 → ℝ) (p : Fin 256)
    (hW : ∀ i, W (ix2 p i) = ((w i : ℝ) : EReal)) (hT : T (ix2 p (0 : Fin 1)) = ((t : ℝ) : EReal))
    (h7 : ∀ i j, D7 (ix3 p i j) = ((d7 i j : ℝ) : EReal)) (h8 : ∀ i j, D8 (ix3 p i j) = ((d8 i j : ℝ) : EReal))
    (h9 : ∀ i j, D9 (ix3 p i j) = ((d9 i j : ℝ) : EReal)) (hZ : ∀ i j, Z (ix3 p i j) = ((0 : ℝ) : EReal)) :
    k0_pay11 (F := Ideal) W T D7 D8 D9 Z (ix2 p (0 : Fin 1))
      = (((∑ i, ∑ j, (lapD (w i) (d7 i j) + lapD (w i) (d8 i j) - 2 * lapD (w i) (d9 i j))) * t : ℝ) : EReal) := by
  simp only [k0_pay11]
  rw [mulf_apply, hT, EReal.coe_mul]
  refine congrArg (· * ((t : ℝ) : EReal)) ?_
  refine (Cert.Lib.RowSum.rowsum_column _ _ _ _ _ p 0).trans ?_
  rw [Cert.RealSums.coe_sum]
  refine Finset.sum_congr rfl fun i _ => ?_
  rw [Cert.Lib.GroupedLanes.lanesum_apply, Cert.RealSums.coe_sum]
  refine Finset.sum_congr rfl fun j _ => ?_
  rw [subf_apply, addf_apply, mulf_apply, broadcast_apply,
    lapvec_apply W D7 Z (FloatOps.ofBits (F := Ideal) .f32 0x00000000#32) (w i) (d7 i j) p i j (hW i) (h7 i j) (hZ i j)
      Cert.Consts.ofBits_zero,
    lapvec_apply W D8 (broadcast S256x16x16 (FloatOps.ofBits (F := Ideal) .f32 0x00000000#32))
      (FloatOps.ofBits (F := Ideal) .f32 0x00000000#32) (w i) (d8 i j) p i j (hW i) (h8 i j)
      Cert.Consts.ofBits_zero Cert.Consts.ofBits_zero,
    lapvec_apply W D9 (broadcast S256x16x16 (FloatOps.ofBits (F := Ideal) .f32 0x00000000#32))
      (FloatOps.ofBits (F := Ideal) .f32 0x00000000#32) (w i) (d9 i j) p i j (hW i) (h9 i j)
      Cert.Consts.ofBits_zero Cert.Consts.ofBits_zero]
  show _ - Ideal.ofBits .f32 0x40000000#32 * _ = _
  rw [Cert.Consts.ofBits_two, ← EReal.coe_add, ← EReal.coe_mul, ← EReal.coe_sub]

/-- The body's one stored value at row `p` of a block: the group's sum over all pairs, times its weight. -/
theorem payload_apply
    (X Y : Vec Ideal S256x16x64 .f32) (W : Vec Ideal S256x16 .f32) (T : Vec Ideal S256x1 .f32)
    (xr yr : Fin 256 → Fin 16 → Fin 64 → ℝ) (wr : Fin 256 → Fin 16 → ℝ) (tr : Fin 256 → ℝ)
    (hX : ∀ p i k, X (ix3 p i k) = ((xr p i k : ℝ) : EReal))
    (hY : ∀ p i k, Y (ix3 p i k) = ((yr p i k : ℝ) : EReal))
    (hW : ∀ p i, W (ix2 p i) = ((wr p i : ℝ) : EReal))
    (hT : ∀ p, T (ix2 p (0 : Fin 1)) = ((tr p : ℝ) : EReal)) (p : Fin 256) :
    k0_pay11 (F := Ideal) (k0_pay3 W) (k0_pay4 T) (k0_pay7 X) (k0_pay8 Y) (k0_pay9 X Y) (k0_pay10 (F := Ideal)) (ix2 p (0 : Fin 1))
      = ((Cert.Spec.groupK (xr p) (yr p) (wr p) * tr p : ℝ) : EReal) := by
  have e3 : k0_pay3 (F := Ideal) W = W := shapeCast_self W _
  have e4 : k0_pay4 (F := Ideal) T = T := shapeCast_self T _
  have e7 : k0_pay7 (F := Ideal) X = k0_pay9 X X := rfl
  have e8 : k0_pay8 (F := Ideal) Y = k0_pay9 Y Y := rfl
  rw [e3, e4, e7, e8]
  exact tail_apply W T _ _ _ _ (wr p) (tr p) _ _ _ p (hW p) (hT p)
    (fun i j => d2_apply X X xr xr hX hX p i j) (fun i j => d2_apply Y Y yr yr hY hY p i j)
    (fun i j => d2_apply X Y xr yr hX hY p i j) (fun _ _ => Cert.Consts.ofBits_zero)

end Cert.KernelIdeal.Body

end
-- ==== Proof.KernelArray.lean ====
/-
  The kernel's result from its blocks.

  The result column [8192,1] is written block by block: point `t` writes rows `256·t … 256·t + 255`, each
  row `g` holding the group's sum over all pairs times its time weight.  The 32 blocks tile the
  column, so after the run the column is that one function of the row.  The lines after the region
  sum the column and divide by `2097152`: the loss in its first spelling.

  Everything is stated for arrays (as the region finds them) whose entries are real numbers, the reals
  being named `xr`, `yr`, `wr`, `tr`.
-/
import proofs.«140871_j44152263803555_2_alg».proof.Proof.Gen.KernelIdeal.Frame
import proofs.«140871_j44152263803555_2_alg».proof.Proof.KernelBlocks
import proofs.«140871_j44152263803555_2_alg».proof.Proof.KernelBody
import proofs.«140871_j44152263803555_2_alg».proof.Proof.Spec
import proofs.«140871_j44152263803555_2_alg».proof.Proof.Consts
import proofs.«140871_j44152263803555_2_alg».proof.Proof.LibRealSums
import Idealize.ShloMosaic.Lib.Pipeline.Value
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem Idealize.ShloMosaic.StableHlo
open Idealize.ShloMosaic.Pipeline (Dat)

namespace Cert.KernelIdeal.Array

open Cert.KernelIdeal Cert.KernelIdeal.Gen Cert.KernelIdeal.Blocks Idealize.ShloMosaic.ValueIdx

variable (m : (ℓ : Loc nD τ sig) → Buf (Elt Ideal) ℓ)
variable (xr yr : Fin 8192 → Fin 16 → Fin 64 → ℝ) (wr : Fin 8192 → Fin 16 → ℝ) (tr : Fin 8192 → ℝ)

theorem hz2 : (![0, 0] : Fin 2 → Nat) = fun _ => 0 := funext fun a => by fin_cases a <;> rfl
theorem hz3 : (![0, 0, 0] : Fin 3 → Nat) = fun _ => 0 := funext fun a => by fin_cases a <;> rfl

/-- The group a row of the result column belongs to. -/
def rowOf (i : S8192x1.Idx) : Fin 8192 := ⟨(i 0).val, (i 0).isLt⟩

/-- The result column as one function of the row: the group's sum over all pairs times its weight. -/
def column : S8192x1.Idx → EReal := fun i =>
  ((Cert.Spec.groupK (xr (rowOf i)) (yr (rowOf i)) (wr (rowOf i)) * tr (rowOf i) : ℝ) : EReal)

/-- Row `p` of the output block at point `t` is row `256·t + p` of the column. -/
theorem oblk_emb (t : Fin cfg0.N) (p : Fin 256) (g : Fin 8192) (hg : g.val = 256 * t.val + p.val) :
    ((cfg0.win 4).blk t).view.emb (ix2 p (0 : Fin 1)) = (ix2 g (0 : Fin 1) : S8192x1.Idx) := by
  obtain ⟨-, -, -, -, -, -, -, -, -, -, e0, e1⟩ := idx_facts t
  funext a
  apply Fin.ext
  match a with
  | ⟨0, _⟩ => show win0_4.index t (0 : Fin 2) * 256 + 1 * p.val = g.val; rw [e0, hg]; omega
  | ⟨1, _⟩ => show win0_4.index t (1 : Fin 2) * 1 + 1 * (0 : Fin 1).val = (0 : Fin 1).val; rw [e1]; rfl

/-- WHAT POINT `t` WRITES BACK is block `t` of the column. -/
theorem flushed_eq (c : Dev nD)
    (hx : ∀ g i k, (V m c main_v0 : S8192x16x64.Idx → EReal) (ix3 g i k) = ((xr g i k : ℝ) : EReal))
    (hy : ∀ g i k, (V m c main_v1 : S8192x16x64.Idx → EReal) (ix3 g i k) = ((yr g i k : ℝ) : EReal))
    (hw : ∀ g i, (V m c main_v2 : S8192x16.Idx → EReal) (ix2 g i) = ((wr g i : ℝ) : EReal))
    (ht : ∀ g, (V m c main_v6 : S8192x1.Idx → EReal) (ix2 g (0 : Fin 1)) = ((tr g : ℝ) : EReal))
    (t : Fin cfg0.N) :
    (dats m 0 c).flushed 4 t = ((cfg0.win 4).blk t).view.read (Elt Ideal) (column xr yr wr tr) := by
  have hN : cfg0.N = 32 := N_0
  have htl : t.val < 32 := hN ▸ t.isLt
  show (cfg0.win 4).cut (grid0.coords t) ((dats m 0 c).after 4 t) = _
  rw [after0_4]
  unfold out0_4
  rw [View.canon_unit_zero hz2]
  simp only [View.ld_unit_zero (S := S256x16x64) hz3, View.ld_unit_zero (S := S256x16) hz2, View.ld_unit_zero (S := S256x1) hz2]
  funext j
  obtain ⟨p, q, rfl⟩ : ∃ (p : Fin 256) (q : Fin 1), j = ix2 p q := ⟨j 0, j 1, eq_ix2 j⟩
  obtain rfl : q = 0 := Subsingleton.elim _ _
  have hgp : ∀ p' : Fin 256, 256 * t.val + p'.val < 8192 := fun p' => by have := p'.isLt; omega
  rw [View.read_apply, oblk_emb t p ⟨256 * t.val + p.val, hgp p⟩ rfl]
  show k0_pay11 (F := Ideal) (k0_pay3 (iblk m c 2 t)) (k0_pay4 (iblk m c 3 t)) (k0_pay7 (iblk m c 0 t)) (k0_pay8 (iblk m c 1 t))
      (k0_pay9 (iblk m c 0 t) (iblk m c 1 t)) (k0_pay10 (F := Ideal)) (ix2 p (0 : Fin 1)) = _
  refine (Cert.KernelIdeal.Body.payload_apply (iblk m c 0 t) (iblk m c 1 t) (iblk m c 2 t) (iblk m c 3 t)
    (fun p' i k => xr ⟨256 * t.val + p'.val, hgp p'⟩ i k) (fun p' i k => yr ⟨256 * t.val + p'.val, hgp p'⟩ i k)
    (fun p' i => wr ⟨256 * t.val + p'.val, hgp p'⟩ i) (fun p' => tr ⟨256 * t.val + p'.val, hgp p'⟩)
    (fun p' i k => (iblk0_apply m c t p' i k ⟨256 * t.val + p'.val, hgp p'⟩ rfl).trans (hx _ i k))
    (fun p' i k => (iblk1_apply m c t p' i k ⟨256 * t.val + p'.val, hgp p'⟩ rfl).trans (hy _ i k))
    (fun p' i => (iblk2_apply m c t p' i ⟨256 * t.val + p'.val, hgp p'⟩ rfl).trans (hw _ i))
    (fun p' => (iblk3_apply m c t p' ⟨256 * t.val + p'.val, hgp p'⟩ rfl).trans (ht _)) p).trans ?_
  rfl

/-- An index of the column is in point `t`'s block iff its row is among the block's 256 rows. -/
theorem mem_blk (t : Fin cfg0.N) (i : S8192x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v7).slice (win0_4.rect t)).set ↔ _
  rw [View.set_slice_whole, Rect.mem_set_unit]
  exact Iff.rfl

/-- THE COLUMN after the run: the 32 blocks tile it, so it is `column` everywhere. -/
theorem final (c : Dev nD)
    (hx : ∀ g i k, (V m c main_v0 : S8192x16x64.Idx → EReal) (ix3 g i k) = ((xr g i k : ℝ) : EReal))
    (hy : ∀ g i k, (V m c main_v1 : S8192x16x64.Idx → EReal) (ix3 g i k) = ((yr g i k : ℝ) : EReal))
    (hw : ∀ g i, (V m c main_v2 : S8192x16.Idx → EReal) (ix2 g i) = ((wr g i : ℝ) : EReal))
    (ht : ∀ g, (V m c main_v6 : S8192x1.Idx → EReal) (ix2 g (0 : Fin 1)) = ((tr g : ℝ) : EReal)) :
    (dats m 0 c).arrAt 4 cfg0.N = column xr yr wr tr :=
  (dats m 0 c).arrAt_eq_of_cover 4 (column xr yr wr tr) (fun t _ => flushed_eq m xr yr wr tr c hx hy hw ht t) fun i => by
    have hN : cfg0.N = 32 := N_0
    have hi0 : (i 0).val < 8192 := (i 0).isLt
    have hi1 : (i 1).val < 1 := (i 1).isLt
    refine ⟨⟨(i 0).val / 256, by rw [hN]; omega⟩, flush0_4 _, ?_⟩
    rw [mem_blk]
    obtain ⟨-, -, -, -, -, -, -, -, -, -, e0, e1⟩ := idx_facts ⟨(i 0).val / 256, by rw [hN]; omega⟩
    intro a
    match a with
    | ⟨0, _⟩ => show win0_4.index _ (0 : Fin 2) * 256 ≤ (i 0).val ∧ (i 0).val < win0_4.index _ (0 : Fin 2) * 256 + 256; rw [e0]; show (i 0).val / 256 * 256 ≤ _ ∧ _ < (i 0).val / 256 * 256 + 256; omega
    | ⟨1, _⟩ => show win0_4.index _ (1 : Fin 2) * 1 ≤ (i 1).val ∧ (i 1).val < win0_4.index _ (1 : Fin 2) * 1 + 1; rw [e1]; omega

/-- THE RESULT: the lines after the region sum the column and divide by `2097152`. -/
theorem tail_value (c : Dev nD)
    (hx : ∀ g i k, (V m c main_v0 : S8192x16x64.Idx → EReal) (ix3 g i k) = ((xr g i k : ℝ) : EReal))
    (hy : ∀ g i k, (V m c main_v1 : S8192x16x64.Idx → EReal) (ix3 g i k) = ((yr g i k : ℝ) : EReal))
    (hw : ∀ g i, (V m c main_v2 : S8192x16.Idx → EReal) (ix2 g i) = ((wr g i : ℝ) : EReal))
    (ht : ∀ g, (V m c main_v6 : S8192x1.Idx → EReal) (ix2 g (0 : Fin 1)) = ((tr g : ℝ) : EReal)) :
    (Pipeline.afterTail₀ cfgs (dats m) 0 (V0 m) [hostOps1] c main_v9 : S_.Idx → EReal)
      = fun _ => ((Cert.Spec.lossK xr yr wr tr : ℝ) : EReal) := by
  unfold Pipeline.afterTail₀
  show StableHlo.after hostOps1 _ (Proc.devRef .tc main_v9) = _
  after_results
  have hA : Pipeline.withArrays (cfgs 0).spec c (V0 m c) (fun w => (dats m 0 c).arrAt w (cfgs 0).N) (Proc.devRef .tc main_v7)
      = column xr yr wr tr :=
    (Pipeline.withArrays_arr spec0 launch0.win.arr_inj c _ _ 4).trans (final m xr yr wr tr c hx hy hw ht)
  rw [hA]
  funext i
  show FloatOps.hostDivf (Host.reduceAdd (F := Ideal) (column xr yr wr tr) (constant S_ .f32 0x00000000#32) reducesTo_S8192x1_S_d0_1 h_S_ i)
      (FloatOps.ofBits (F := Ideal) .f32 0x4A000000#32) = _
  have hsum : Host.reduceAdd (F := Ideal) (column xr yr wr tr) (constant S_ .f32 0x00000000#32) reducesTo_S8192x1_S_d0_1 h_S_ i
      = Ideal.ofBits .f32 0x00000000#32 + ∑ j : S8192x1.Idx, column xr yr wr tr j := by
    simp only [Host.reduceAdd, Ideal.hostReduceAdd_def]
    exact Ideal.hostReduceAdd_total reducesTo_S8192x1_S_d0_1 (fun b => b.elim0) (column xr yr wr tr) _ i
  rw [hsum, Ideal.hostDivf_def, Ideal.ofBits_def, Cert.Consts.ofBits_zero, Cert.Consts.ofBits_2097152, sum_idx2]
  simp only [Fin.sum_univ_one]
  have hcol : ∀ a : Fin 8192, column xr yr wr tr (ix2 a (0 : Fin 1)) = ((Cert.Spec.groupK (xr a) (yr a) (wr a) * tr a : ℝ) : EReal) := fun a => rfl
  simp only [hcol]
  rw [← Cert.RealSums.coe_sum, ← EReal.coe_add, Ideal.div_coe (by norm_num : (2097152 : ℝ) ≠ 0), ← EReal.coe_mul]
  refine congrArg (fun r : ℝ => (r : EReal)) ?_
  unfold Cert.Spec.lossK
  ring

end Cert.KernelIdeal.Array

end
-- ==== Proof.LibTrailingSum.lean ====
/-
  A host sum over the two trailing axes of a rank-3 array.

  `jnp.sum(x, axis=(1, 2))` of an `[a, b, c]` array prints as `Host.reduceAdd` across dimensions `[1, 2]`
  into `[a]`.  At the ideal values the host's float sum is the initial value plus the sum of the operand's
  entries that reduce to each index; an entry `(g', i, j)` reduces to `g` exactly when `g' = g`, so read
  at `g` the sum is the double sum over `i` and `j` of the entries `(g, i, j)`.  Stated for any extents;
  the shape condition is the one the printed program states for the operation.
-/
import Idealize.ShloMosaic.Lib.ValueIdx
import Idealize.ShloMosaic.PureOps.Ideal.Laws

noncomputable section

namespace Cert.Lib.TrailingSum

open Idealize.ShloMosaic Idealize.ShloMosaic.ValueIdx

variable {a b c : ℕ}

/-- The kept coordinate of a rank-3 index under the reduction over axes 1 and 2 is its leading one. -/
theorem drop_val (h : (⟨3, ![a, b, c]⟩ : Shape).ReducesTo [1, 2] ⟨1, ![a]⟩) (i : (⟨3, ![a, b, c]⟩ : Shape).Idx) :
    ((h.drop i (0 : Fin 1) : Fin _) : Nat) = (i (0 : Fin 3) : Nat) :=
  Shape.ReducesTo.drop_apply_val_of_eq h i (0 : Fin 1) (0 : Fin 3) (hb := (by decide : (0 : ℕ) < 1)) (hc := rfl)

/-- A host sum over the two trailing axes of an `[a, b, c]` array, read at `g`: the initial value plus
    `∑ i, ∑ j, y (g, i, j)`. -/
theorem hostReduceAdd_trailing2 (h : (⟨3, ![a, b, c]⟩ : Shape).ReducesTo [1, 2] ⟨1, ![a]⟩)
    (y : (⟨3, ![a, b, c]⟩ : Shape).Idx → EReal) (init : EReal) (g : Fin a) :
    Ideal.hostReduceAdd h y init (ix1 g) = init + ∑ i : Fin b, ∑ j : Fin c, y (ix3 g i j) := by
  unfold Ideal.hostReduceAdd
  refine congrArg (init + ·) ?_
  rw [← Finset.sum_product']
  refine Finset.sum_bij' (fun i _ => ((i (1 : Fin 3) : Fin b), (i (2 : Fin 3) : Fin c))) (fun p _ => ix3 g p.1 p.2) ?_ ?_ ?_ ?_ ?_
  · intro i _; exact Finset.mem_product.2 ⟨Finset.mem_univ _, Finset.mem_univ _⟩
  · intro p _
    refine Finset.mem_filter.2 ⟨Finset.mem_univ _, ?_⟩
    funext d
    match d with
    | ⟨0, _⟩ => exact Fin.ext (drop_val h (ix3 g p.1 p.2))
  · intro i hi
    have h0 := congrFun (Finset.mem_filter.1 hi).2 (0 : Fin 1)
    have h1 : (i (0 : Fin 3) : Nat) = g.val := by rw [← drop_val h i, h0]
    funext d
    match d with
    | ⟨0, _⟩ => exact Fin.ext h1.symm
    | ⟨1, _⟩ => rfl
    | ⟨2, _⟩ => rfl
  · intro p _; rfl
  · intro i hi
    have h0 := congrFun (Finset.mem_filter.1 hi).2 (0 : Fin 1)
    have h1 : (i (0 : Fin 3) : Nat) = g.val := by rw [← drop_val h i, h0]
    refine congrArg y ?_
    funext d
    match d with
    | ⟨0, _⟩ => exact Fin.ext h1
    | ⟨1, _⟩ => rfl
    | ⟨2, _⟩ => rfl

end Cert.Lib.TrailingSum

end
-- ==== Proof.RefValue.lean ====
/-
  The reference's result at real-valued arguments.

  The reference spreads the two clouds over all pairs of particles of a group, subtracts, squares,
  sums over the sixty-four coordinates and takes the square root: the distance of a pair.  It floors the
  distance at `ε`, multiplies by the negated scale of the first particle of the pair, divides by `64` and
  exponentiates: one Laplace kernel.  Three such tables (within the first cloud, within the second,
  across) combine into the pair term, which is summed over the 256 pairs of a group, multiplied by
  the group's time weight, divided by `256`, summed over the 8192 groups and divided by `8192`.
  When the regrouped arguments hold casts of reals, every step stays among the casts of reals (a
  sum of squares is not negative, so its square root is the real one), and the result is the cast of
  the loss in its second spelling.
-/
import proofs.«140871_j44152263803555_2_alg».proof.Proof.Gen.ReferenceIdeal.Read
import proofs.«140871_j44152263803555_2_alg».proof.Proof.Spec
import proofs.«140871_j44152263803555_2_alg».proof.Proof.Consts
import proofs.«140871_j44152263803555_2_alg».proof.Proof.LibRealSums
import proofs.«140871_j44152263803555_2_alg».proof.Proof.LibTrailingSum
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read
open Cert.ReferenceIdeal.Gen

/-! ## Casts of real numbers through the operations with corners -/

/-- The larger of two casts is the cast of the larger. -/
theorem coe_max (a b : ℝ) : max (a : EReal) (b : EReal) = ((max a b : ℝ) : EReal) :=
  (EReal.coe_strictMono.monotone.map_max).symm

/-- The square root of the cast of a nonnegative real is the cast of its square root. -/
theorem sqrt_coe_of_nonneg {r : ℝ} (h : 0 ≤ r) : Ideal.sqrt (r : EReal) = ((Real.sqrt r : ℝ) : EReal) := by
  rw [Ideal.sqrt_coe, if_neg (not_lt.2 h)]

/-- One Laplace kernel on scalars: the exponential of the negated scale times the floored distance over sixty-four,
    the distance the square root of the sum of the squared differences, every word read as the real it denotes. -/
theorem lap_scalar (u v : Fin 64 → ℝ) (s : ℝ) :
    Ideal.exp (Ideal.div (-(s : EReal) * max (Ideal.sqrt (Ideal.ofBits .f32 0x00000000#32
        + ∑ k : Fin 64, ((u k : EReal) - (v k : EReal)) * ((u k : EReal) - (v k : EReal))))
        (Ideal.ofBits .f32 0x3BC49BA6#32)) (Ideal.ofBits .f32 0x42800000#32))
      = ((Cert.Spec.lapR u v s : ℝ) : EReal) := by
  rw [Cert.Consts.ofBits_zero, Cert.Consts.ofBits_eps, Cert.Consts.ofBits_64]
  simp only [← EReal.coe_sub, ← EReal.coe_mul]
  rw [← Cert.RealSums.coe_sum, ← EReal.coe_add, zero_add,
    sqrt_coe_of_nonneg (Finset.sum_nonneg fun k _ => mul_self_nonneg _), coe_max, ← EReal.coe_neg, ← EReal.coe_mul,
    Ideal.div_coe (by norm_num), ← EReal.coe_mul, Ideal.exp_coe, mul_one_div]
  rfl

/-- A sum over the two trailing axes of a rank-3 array, read at one index of the leading axis. -/
theorem hostReduceAdd_d12 (y : S8192x16x16.Idx → EReal) (init : EReal) (g : Fin 8192) :
    Ideal.hostReduceAdd reducesTo_S8192x16x16_S8192_d1_2 y init (ix1 g)
      = init + ∑ a : Fin 16, ∑ b : Fin 16, y (ix3 g a b) :=
  Cert.Lib.TrailingSum.hostReduceAdd_trailing2 reducesTo_S8192x16x16_S8192_d1_2 y init g

/-! ## The three Laplace kernels of the reference, read at a pair of particles -/

/-- The kernel within the first cloud: particles `i` and `j` of group `g`, at the scale of particle `i`. -/
theorem lap_aa (A0 : (⟨S131072x16x4, .f32⟩ : BufTy).Contents (Elt Ideal)) (A2 : (⟨S131072, .f32⟩ : BufTy).Contents (Elt Ideal))
    (xr : Fin 8192 → Fin 16 → Fin 64 → ℝ) (wr : Fin 8192 → Fin 16 → ℝ)
    (hx : ∀ g i k, val_main_v0 (F := Ideal) A0 (ix3 g i k) = ((xr g i k : ℝ) : EReal))
    (hw : ∀ g i, val_main_v2 (F := Ideal) A2 (ix2 g i) = ((wr g i : ℝ) : EReal))
    (g : Fin 8192) (i j : Fin 16) :
    val_main_v20 (F := Ideal) A0 A2 (ix3 g i j) = ((Cert.Spec.lapR (xr g i) (xr g j) (wr g i) : ℝ) : EReal) := by
  have e1 : ∀ k : Fin 64, idx_main_v6 (idx_main_v8 (idx_main_call0_v1 (ix3 g i j) k)) = ix3 g i k := fun k =>
    funext fun a => Fin.ext (by match a with | ⟨0, _⟩ => rfl | ⟨1, _⟩ => rfl | ⟨2, _⟩ => rfl)
  have e2 : ∀ k : Fin 64, idx_main_v7 (idx_main_v9 (idx_main_call0_v1 (ix3 g i j) k)) = ix3 g j k := fun k =>
    funext fun a => Fin.ext (by match a with | ⟨0, _⟩ => rfl | ⟨1, _⟩ => rfl | ⟨2, _⟩ => rfl)
  have e3 : idx_main_v14 (idx_main_v16 (ix3 g i j)) = ix2 g i :=
    funext fun a => Fin.ext (by match a with | ⟨0, _⟩ => rfl | ⟨1, _⟩ => rfl)
  have hs : ∀ k : Fin 64, val_main_call0_v0 (F := Ideal) A0 (idx_main_call0_v1 (ix3 g i j) k)
      = (((xr g i k : ℝ) : EReal) - ((xr g j k : ℝ) : EReal)) * (((xr g i k : ℝ) : EReal) - ((xr g j k : ℝ) : EReal)) :=
    fun k => by
      rw [val_main_call0_v0_apply, val_main_v10_apply, val_main_v8_apply, val_main_v6_apply, val_main_v9_apply,
        val_main_v7_apply, e1 k, e2 k, hx, hx]
      rfl
  rw [val_main_v20_apply, val_main_v19_apply, val_main_v17_apply, val_main_v16_apply, val_main_v15_apply,
    val_main_v14_apply, e3, hw, val_main_v18_apply, val_main_cst_0_apply, val_main_v13_apply, val_main_v12_apply,
    val_main_cst_apply, val_main_v11_apply, val_main_call0_v1_apply, val_main_call0_cst_apply]
  simp only [hs]
  exact lap_scalar (xr g i) (xr g j) (wr g i)

/-- The kernel within the second cloud. -/
theorem lap_bb (A1 : (⟨S131072x16x4, .f32⟩ : BufTy).Contents (Elt Ideal)) (A2 : (⟨S131072, .f32⟩ : BufTy).Contents (Elt Ideal))
    (yr : Fin 8192 → Fin 16 → Fin 64 → ℝ) (wr : Fin 8192 → Fin 16 → ℝ)
    (hy : ∀ g i k, val_main_v1 (F := Ideal) A1 (ix3 g i k) = ((yr g i k : ℝ) : EReal))
    (hw : ∀ g i, val_main_v2 (F := Ideal) A2 (ix2 g i) = ((wr g i : ℝ) : EReal))
    (g : Fin 8192) (i j : Fin 16) :
    val_main_v35 (F := Ideal) A1 A2 (ix3 g i j) = ((Cert.Spec.lapR (yr g i) (yr g j) (wr g i) : ℝ) : EReal) := by
  have e1 : ∀ k : Fin 64, idx_main_v21 (idx_main_v23 (idx_main_call1_v1 (ix3 g i j) k)) = ix3 g i k := fun k =>
    funext fun a => Fin.ext (by match a with | ⟨0, _⟩ => rfl | ⟨1, _⟩ => rfl | ⟨2, _⟩ => rfl)
  have e2 : ∀ k : Fin 64, idx_main_v22 (idx_main_v24 (idx_main_call1_v1 (ix3 g i j) k)) = ix3 g j k := fun k =>
    funext fun a => Fin.ext (by match a with | ⟨0, _⟩ => rfl | ⟨1, _⟩ => rfl | ⟨2, _⟩ => rfl)
  have e3 : idx_main_v29 (idx_main_v31 (ix3 g i j)) = ix2 g i :=
    funext fun a => Fin.ext (by match a with | ⟨0, _⟩ => rfl | ⟨1, _⟩ => rfl)
  have hs : ∀ k : Fin 64, val_main_call1_v0 (F := Ideal) A1 (idx_main_call1_v1 (ix3 g i j) k)
      = (((yr g i k : ℝ) : EReal) - ((yr g j k : ℝ) : EReal)) * (((yr g i k : ℝ) : EReal) - ((yr g j k : ℝ) : EReal)) :=
    fun k => by
      rw [val_main_call1_v0_apply, val_main_v25_apply, val_main_v23_apply, val_main_v21_apply, val_main_v24_apply,
        val_main_v22_apply, e1 k, e2 k, hy, hy]
      rfl
  rw [val_main_v35_apply, val_main_v34_apply, val_main_v32_apply, val_main_v31_apply, val_main_v30_apply,
    val_main_v29_apply, e3, hw, val_main_v33_apply, val_main_cst_2_apply, val_main_v28_apply, val_main_v27_apply,
    val_main_cst_1_apply, val_main_v26_apply, val_main_call1_v1_apply, val_main_call1_cst_apply]
  simp only [hs]
  exact lap_scalar (yr g i) (yr g j) (wr g i)

/-- The kernel across the clouds: particle `i` of the first against particle `j` of the second. -/
theorem lap_ab (A0 A1 : (⟨S131072x16x4, .f32⟩ : BufTy).Contents (Elt Ideal)) (A2 : (⟨S131072, .f32⟩ : BufTy).Contents (Elt Ideal))
    (xr yr : Fin 8192 → Fin 16 → Fin 64 → ℝ) (wr : Fin 8192 → Fin 16 → ℝ)
    (hx : ∀ g i k, val_main_v0 (F := Ideal) A0 (ix3 g i k) = ((xr g i k : ℝ) : EReal))
    (hy : ∀ g i k, val_main_v1 (F := Ideal) A1 (ix3 g i k) = ((yr g i k : ℝ) : EReal))
    (hw : ∀ g i, val_main_v2 (F := Ideal) A2 (ix2 g i) = ((wr g i : ℝ) : EReal))
    (g : Fin 8192) (i j : Fin 16) :
    val_main_v51 (F := Ideal) A0 A1 A2 (ix3 g i j) = ((Cert.Spec.lapR (xr g i) (yr g j) (wr g i) : ℝ) : EReal) := by
  have e1 : ∀ k : Fin 64, idx_main_v37 (idx_main_v39 (idx_main_call2_v1 (ix3 g i j) k)) = ix3 g i k := fun k =>
    funext fun a => Fin.ext (by match a with | ⟨0, _⟩ => rfl | ⟨1, _⟩ => rfl | ⟨2, _⟩ => rfl)
  have e2 : ∀ k : Fin 64, idx_main_v38 (idx_main_v40 (idx_main_call2_v1 (ix3 g i j) k)) = ix3 g j k := fun k =>
    funext fun a => Fin.ext (by match a with | ⟨0, _⟩ => rfl | ⟨1, _⟩ => rfl | ⟨2, _⟩ => rfl)
  have e3 : idx_main_v45 (idx_main_v47 (ix3 g i j)) = ix2 g i :=
    funext fun a => Fin.ext (by match a with | ⟨0, _⟩ => rfl | ⟨1, _⟩ => rfl)
  have hs : ∀ k : Fin 64, val_main_call2_v0 (F := Ideal) A0 A1 (idx_main_call2_v1 (ix3 g i j) k)
      = (((xr g i k : ℝ) : EReal) - ((yr g j k : ℝ) : EReal)) * (((xr g i k : ℝ) : EReal) - ((yr g j k : ℝ) : EReal)) :=
    fun k => by
      rw [val_main_call2_v0_apply, val_main_v41_apply, val_main_v39_apply, val_main_v37_apply, val_main_v40_apply,
        val_main_v38_apply, e1 k, e2 k, hx, hy]
      rfl
  rw [val_main_v51_apply, val_main_v50_apply, val_main_v48_apply, val_main_v47_apply, val_main_v46_apply,
    val_main_v45_apply, e3, hw, val_main_v49_apply, val_main_cst_4_apply, val_main_v44_apply, val_main_v43_apply,
    val_main_cst_3_apply, val_main_v42_apply, val_main_call2_v1_apply, val_main_call2_cst_apply]
  simp only [hs]
  exact lap_scalar (xr g i) (yr g j) (wr g i)

/-! ## A pair's term, a group's sum, the loss -/

/-- The term of the pair `(i, j)` of group `g`: the two kernels within the clouds less twice the one across. -/
theorem pair_term (A0 A1 : (⟨S131072x16x4, .f32⟩ : BufTy).Contents (Elt Ideal)) (A2 : (⟨S131072, .f32⟩ : BufTy).Contents (Elt Ideal))
    (xr yr : Fin 8192 → Fin 16 → Fin 64 → ℝ) (wr : Fin 8192 → Fin 16 → ℝ)
    (hx : ∀ g i k, val_main_v0 (F := Ideal) A0 (ix3 g i k) = ((xr g i k : ℝ) : EReal))
    (hy : ∀ g i k, val_main_v1 (F := Ideal) A1 (ix3 g i k) = ((yr g i k : ℝ) : EReal))
    (hw : ∀ g i, val_main_v2 (F := Ideal) A2 (ix2 g i) = ((wr g i : ℝ) : EReal))
    (g : Fin 8192) (i j : Fin 16) :
    val_main_v54 (F := Ideal) A0 A1 A2 (ix3 g i j)
      = ((Cert.Spec.lapR (xr g i) (xr g j) (wr g i) + Cert.Spec.lapR (yr g i) (yr g j) (wr g i)
          - 2 * Cert.Spec.lapR (xr g i) (yr g j) (wr g i) : ℝ) : EReal) := by
  rw [val_main_v54_apply, val_main_v36_apply, val_main_v53_apply, val_main_v52_apply, val_main_cst_5_apply,
    lap_aa A0 A2 xr wr hx hw, lap_bb A1 A2 yr wr hy hw, lap_ab A0 A1 A2 xr yr wr hx hy hw,
    Ideal.ofBits_def, Cert.Consts.ofBits_two, Ideal.subf_def, Ideal.addf_def, Ideal.mulf_def,
    ← EReal.coe_add, ← EReal.coe_mul, ← EReal.coe_sub]

/-- The sum over all pairs of one group. -/
theorem group_sum (A0 A1 : (⟨S131072x16x4, .f32⟩ : BufTy).Contents (Elt Ideal)) (A2 : (⟨S131072, .f32⟩ : BufTy).Contents (Elt Ideal))
    (xr yr : Fin 8192 → Fin 16 → Fin 64 → ℝ) (wr : Fin 8192 → Fin 16 → ℝ)
    (hx : ∀ g i k, val_main_v0 (F := Ideal) A0 (ix3 g i k) = ((xr g i k : ℝ) : EReal))
    (hy : ∀ g i k, val_main_v1 (F := Ideal) A1 (ix3 g i k) = ((yr g i k : ℝ) : EReal))
    (hw : ∀ g i, val_main_v2 (F := Ideal) A2 (ix2 g i) = ((wr g i : ℝ) : EReal))
    (g : Fin 8192) :
    val_main_v55 (F := Ideal) A0 A1 A2 (ix1 g) = ((Cert.Spec.groupR (xr g) (yr g) (wr g) : ℝ) : EReal) := by
  unfold val_main_v55
  simp only [Host.reduceAdd, Ideal.hostReduceAdd_def]
  rw [hostReduceAdd_d12, val_main_cst_6_apply, Ideal.ofBits_def, Cert.Consts.ofBits_zero]
  simp only [pair_term A0 A1 A2 xr yr wr hx hy hw, ← Cert.RealSums.coe_sum]
  rw [← EReal.coe_add, zero_add]
  rfl

/-- A rank-1 index set is its one coordinate's range … -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- One group's sum, weighted by the group's time weight and divided by the number of pairs. -/
theorem group_weighted (A0 A1 : (⟨S131072x16x4, .f32⟩ : BufTy).Contents (Elt Ideal))
    (A2 A3 : (⟨S131072, .f32⟩ : BufTy).Contents (Elt Ideal))
    (xr yr : Fin 8192 → Fin 16 → Fin 64 → ℝ) (wr : Fin 8192 → Fin 16 → ℝ) (tr : Fin 8192 → ℝ)
    (hx : ∀ g i k, val_main_v0 (F := Ideal) A0 (ix3 g i k) = ((xr g i k : ℝ) : EReal))
    (hy : ∀ g i k, val_main_v1 (F := Ideal) A1 (ix3 g i k) = ((yr g i k : ℝ) : EReal))
    (hw : ∀ g i, val_main_v2 (F := Ideal) A2 (ix2 g i) = ((wr g i : ℝ) : EReal))
    (ht : ∀ g, val_main_v5 (F := Ideal) A3 (ix1 g) = ((tr g : ℝ) : EReal)) (g : Fin 8192) :
    val_main_v58 (F := Ideal) A0 A1 A2 A3 (ix1 g)
      = ((Cert.Spec.groupR (xr g) (yr g) (wr g) * tr g / 256 : ℝ) : EReal) := by
  rw [val_main_v58_apply, val_main_v56_apply, val_main_v57_apply, val_main_cst_7_apply,
    group_sum A0 A1 A2 xr yr wr hx hy hw, ht, Ideal.ofBits_def, Cert.Consts.ofBits_256, Ideal.hostDivf_def,
    Ideal.mulf_def, ← EReal.coe_mul, Ideal.div_coe (by norm_num), ← EReal.coe_mul, mul_one_div]

/-- The reference's scalar result, when the regrouped arguments are real numbers, is the loss in its
    second spelling. -/
theorem ref_value
    (A0 A1 : (⟨S131072x16x4, .f32⟩ : BufTy).Contents (Elt Ideal)) (A2 A3 : (⟨S131072, .f32⟩ : BufTy).Contents (Elt Ideal))
    (xr yr : Fin 8192 → Fin 16 → Fin 64 → ℝ) (wr : Fin 8192 → Fin 16 → ℝ) (tr : Fin 8192 → ℝ)
    (hx : ∀ g i k, val_main_v0 (F := Ideal) A0 (ix3 g i k) = ((xr g i k : ℝ) : EReal))
    (hy : ∀ g i k, val_main_v1 (F := Ideal) A1 (ix3 g i k) = ((yr g i k : ℝ) : EReal))
    (hw : ∀ g i, val_main_v2 (F := Ideal) A2 (ix2 g i) = ((wr g i : ℝ) : EReal))
    (ht : ∀ g, val_main_v5 (F := Ideal) A3 (ix1 g) = ((tr g : ℝ) : EReal)) (i : S_.Idx) :
    val_main_v60 (F := Ideal) A0 A1 A2 A3 i = ((Cert.Spec.lossR xr yr wr tr : ℝ) : EReal) := by
  rw [val_main_v60_apply, val_main_v59_apply, val_main_cst_8_apply, val_main_cst_9_apply, sum_idx1]
  simp only [group_weighted A0 A1 A2 A3 xr yr wr tr hx hy hw ht, ← Cert.RealSums.coe_sum, Ideal.ofBits_def,
    Ideal.hostDivf_def]
  rw [Cert.Consts.ofBits_zero, Cert.Consts.ofBits_8192, ← EReal.coe_add, zero_add, Ideal.div_coe (by norm_num),
    ← EReal.coe_mul, mul_one_div]
  rfl

end Cert.ReferenceIdeal.RefValue

end
-- ==== Proof.RealAlgebra.lean ====
/-
  The two spellings of the loss are one real number.
-/
import proofs.«140871_j44152263803555_2_alg».proof.Proof.Spec

noncomputable section

namespace Cert.Spec

open BigOperators

/-- The norms identity: `|u|² + |v|² - 2⟨u,v⟩` is the sum of the squared coordinate differences. -/
theorem norms_identity (u v : Fin 64 → ℝ) :
    dotp u u + dotp v v - 2 * dotp u v = ∑ k, (u k - v k) * (u k - v k) := by
  unfold dotp
  rw [Finset.mul_sum, ← Finset.sum_add_distrib, ← Finset.sum_sub_distrib]
  refine Finset.sum_congr rfl ?_
  intro k _
  ring

/-- A sum of squares is not negative, so clamping it at zero changes nothing. -/
theorem sum_sq_nonneg (u v : Fin 64 → ℝ) : 0 ≤ ∑ k, (u k - v k) * (u k - v k) :=
  Finset.sum_nonneg (fun k _ => mul_self_nonneg (u k - v k))

/-- The two spellings of the Laplace kernel agree: the norms identity, the idle clamp, and
`(0 - s) · d · (1/64) = (-s) · d / 64`. -/
theorem lapK_eq_lapR (u v : Fin 64 → ℝ) (s : ℝ) : lapK u v s = lapR u v s := by
  unfold lapK lapR
  rw [norms_identity, max_eq_left (sum_sq_nonneg u v)]
  congr 1
  ring

/-- Hence the two spellings of a group's sum over all pairs agree. -/
theorem groupK_eq_groupR (a b : Fin 16 → Fin 64 → ℝ) (s : Fin 16 → ℝ) : groupK a b s = groupR a b s := by
  unfold groupK groupR
  simp only [lapK_eq_lapR]

/-- The norms identity and the regrouped scalings: the two spellings of the loss agree over the reals. -/
theorem lossK_eq_lossR (x y : Fin 8192 → Fin 16 → Fin 64 → ℝ) (w : Fin 8192 → Fin 16 → ℝ) (t : Fin 8192 → ℝ) :
    lossK x y w t = lossR x y w t := by
  unfold lossK lossR
  simp only [groupK_eq_groupR]
  -- dividing every term by 256 and the total by 8192 is dividing the total by 256 · 8192 = 2097152
  simp only [div_eq_mul_inv]
  rw [← Finset.sum_mul, mul_assoc]
  norm_num

end Cert.Spec

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.FiniteInputs.lean ====
/-
  Under the precondition every entry of every argument is a real number.
-/
import proofs.«140871_j44152263803555_2_alg».proof.Proof.Gen.Pre_finite_inputs
import proofs.«140871_j44152263803555_2_alg».proof.Proof.LibFinite
import Idealize.ShloMosaic.Lib.ValueIdx
import Idealize.ShloMosaic.Lib.ReduceAll
import Idealize.ShloMosaic.PureOps.Ideal

noncomputable section

namespace Cert.FiniteInputs

open Idealize.ShloMosaic Cert.Finite Cert.Pre_finite_inputs

/-- The word `0x7F800000` denotes `+∞`. -/
theorem top_word : Ideal.ofBits .f32 0x7F800000#32 = (⊤ : EReal) := by
  simp [Ideal.ofBits, Ideal.ieee]

/-- `|x| < +∞`, with `|x| = max x (-x)`, rules out both infinities: at `⊤` the maximum is `⊤`, and at `⊥` it is
`-⊥ = ⊤` again; what is left is the cast of a real number. -/
theorem isReal_of_abs_lt_top (x : EReal) (h : Ideal.cmp .olt (max x (-x)) (⊤ : EReal) = 1#1) : IsReal x := by
  unfold Ideal.cmp at h
  simp only at h
  induction x using EReal.rec with
  | bot => simp at h
  | coe r => exact isReal_coe r
  | top => simp at h

/-- One element of a test array: the comparison `|x| < 0x7F800000` came out true, so `x` is a real number. -/
theorem isReal_of_test (x : Ideal .f32)
    (h : FloatOps.cmpf (F := Ideal) .olt (FloatOps.hostAbsf x) (FloatOps.ofBits .f32 0x7F800000#32) = 1#1) : IsReal x := by
  have h' : Ideal.cmp .olt (max x (-x)) (Ideal.ofBits .f32 0x7F800000#32) = 1#1 := h
  rw [top_word] at h'
  exact isReal_of_abs_lt_top x h'

/-- The rank-0 shape has one index, so a reduction over all axes has one result. -/
instance : Subsingleton S_.Idx := ⟨fun a b => funext fun d => d.elim0⟩

/-- The precondition's four tests, decoded: every entry of each of the four arguments is a real number. -/
theorem real_of_pre (a0 a1 : FVec Ideal S131072x16x4 .f32) (a2 a3 : FVec Ideal S131072 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  -- the claim at the one index of the rank-0 result: the conjunction of the four reductions by `and` is 1
  have e := congrFun h ValueIdx.ix0
  dsimp only [Cert.Pre_finite_inputs.fn, Cert.Pre_finite_inputs.fn_part1, andi] at e
  -- so each reduction is 1
  simp only [IntOp.andi_eq_one] at e
  obtain ⟨⟨⟨h0, h1⟩, h2⟩, h3⟩ := e
  -- a reduction by `and` over all axes that is 1 met a 1 at every index: the element test holds everywhere
  exact ⟨fun i => isReal_of_test _ (Host.reduce_andi_all _ _ _ _ _ h0 i),
    fun i => isReal_of_test _ (Host.reduce_andi_all _ _ _ _ _ h1 i),
    fun i => isReal_of_test _ (Host.reduce_andi_all _ _ _ _ _ h2 i),
    fun i => isReal_of_test _ (Host.reduce_andi_all _ _ _ _ _ h3 i)⟩

end Cert.FiniteInputs

end
-- ==== Proof.Prologue.lean ====
/-
  The regrouped arguments: both programs begin with the same reshapes.

  Each program first reads its two particle arrays [131072,16,4] as [8192,16,64] (8192 groups of
  sixteen particles of sixty-four coordinates), the scales [131072] as [8192,16], and takes the time
  weight of each group's first particle: column 0 of the weights read as [8192,16].  The kernel's
  program stands that vector up as a column [8192,1]; the reference keeps it a vector.  So the arrays
  the kernel's region finds are the reference's regrouped arguments, and since a regrouping only
  moves entries, real entries stay real.
-/
import proofs.«140871_j44152263803555_2_alg».proof.Proof.Gen.KernelIdeal.Frame
import proofs.«140871_j44152263803555_2_alg».proof.Proof.Gen.ReferenceIdeal.Read
import proofs.«140871_j44152263803555_2_alg».proof.Proof.LibFinite
import proofs.«140871_j44152263803555_2_alg».proof.Proof.LibLayout
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.StableHlo

namespace Cert.Prologue

open Idealize.ShloMosaic.ValueIdx Cert.Finite

section Kernel
open Cert.KernelIdeal Cert.KernelIdeal.Gen
variable (m : (ℓ : Loc nD τ sig) → Buf (Elt Ideal) ℓ)

/-- The first cloud as the region finds it is the reference's regrouping of the first argument. -/
theorem V_v0_eq (c : Dev nD) : (V m c main_v0 : S8192x16x64.Idx → EReal)
    = Cert.ReferenceIdeal.Read.val_main_v0 (F := Ideal) (m ((c : Thread nD τ).loc main_arg0)) := by
  -- the host lines before the region write this array once, as the reshape of the first argument
  have hk : V m c main_v0 = shapeCast S8192x16x64 (m ((c : Thread nD τ).loc main_arg0)) shapeCasts_S131072x16x4_S8192x16x64 := by
    show StableHlo.after hostOps0 (fun b => m (c, b)) (Proc.devRef .tc main_v0) = _
    after_results
    rfl
  rw [hk]
  unfold Cert.ReferenceIdeal.Read.val_main_v0
  rfl

/-- The second cloud likewise. -/
theorem V_v1_eq (c : Dev nD) : (V m c main_v1 : S8192x16x64.Idx → EReal)
    = Cert.ReferenceIdeal.Read.val_main_v1 (F := Ideal) (m ((c : Thread nD τ).loc main_arg1)) := by
  -- the host lines before the region write this array once, as the reshape of the second argument
  have hk : V m c main_v1 = shapeCast S8192x16x64 (m ((c : Thread nD τ).loc main_arg1)) shapeCasts_S131072x16x4_S8192x16x64 := by
    show StableHlo.after hostOps0 (fun b => m (c, b)) (Proc.devRef .tc main_v1) = _
    after_results
    rfl
  rw [hk]
  unfold Cert.ReferenceIdeal.Read.val_main_v1
  rfl

/-- The scales likewise. -/
theorem V_v2_eq (c : Dev nD) : (V m c main_v2 : S8192x16.Idx → EReal)
    = Cert.ReferenceIdeal.Read.val_main_v2 (F := Ideal) (m ((c : Thread nD τ).loc main_arg2)) := by
  -- the host lines before the region write this array once, as the reshape of the third argument
  have hk : V m c main_v2 = shapeCast S8192x16 (m ((c : Thread nD τ).loc main_arg2)) shapeCasts_S131072_S8192x16 := by
    show StableHlo.after hostOps0 (fun b => m (c, b)) (Proc.devRef .tc main_v2) = _
    after_results
    rfl
  rw [hk]
  unfold Cert.ReferenceIdeal.Read.val_main_v2
  rfl

/-- The time weights' column [8192,1] at row `g` is the reference's vector [8192] at `g`. -/
theorem V_v6_apply (c : Dev nD) (g : Fin 8192) : (V m c main_v6 : S8192x1.Idx → EReal) (ix2 g (0 : Fin 1))
    = Cert.ReferenceIdeal.Read.val_main_v5 (F := Ideal) (m ((c : Thread nD τ).loc main_arg3)) (ix1 g) := by
  show StableHlo.after hostOps0 (fun b => m (c, b)) (Proc.devRef .tc main_v6) (ix2 g (0 : Fin 1)) = _
  after_results
  -- the column is the reshape [8192] → [8192, 1] of the reference's chain: reshape [131072] → [8192, 16], the slice
  -- of column 0, reshape [8192, 1] → [8192]
  show shapeCast S8192x1
      (shapeCast S8192
        (extractStridedSlice S8192x1 ![0, 0]
          (shapeCast S8192x16 (m ((c : Thread nD τ).loc main_arg3)) shapeCasts_S131072_S8192x16)
          slices_S8192x16_S8192x1_0_0)
        shapeCasts_S8192x1_S8192)
      shapeCasts_S8192_S8192x1 (ix2 g (0 : Fin 1)) = _
  -- a vector stood up as a column, read at row `g`, is the vector at `g`
  rw [Cert.LibLayout.shapeCast_a_a1_apply]
  unfold Cert.ReferenceIdeal.Read.val_main_v5 Cert.ReferenceIdeal.Read.val_main_v4 Cert.ReferenceIdeal.Read.val_main_v3
  rfl

end Kernel

section Reference
open Cert.ReferenceIdeal Cert.ReferenceIdeal.Read

/-- A regrouping only moves entries: real entries stay real. -/
theorem real_v0 (A : (⟨S131072x16x4, .f32⟩ : BufTy).Contents (Elt Ideal)) (h : ∀ i, IsReal (A i)) (j : S8192x16x64.Idx) :
    IsReal (val_main_v0 (F := Ideal) A j) := by
  rw [val_main_v0_apply]; exact h _

theorem real_v1 (A : (⟨S131072x16x4, .f32⟩ : BufTy).Contents (Elt Ideal)) (h : ∀ i, IsReal (A i)) (j : S8192x16x64.Idx) :
    IsReal (val_main_v1 (F := Ideal) A j) := by
  rw [val_main_v1_apply]; exact h _

theorem real_v2 (A : (⟨S131072, .f32⟩ : BufTy).Contents (Elt Ideal)) (h : ∀ i, IsReal (A i)) (j : S8192x16.Idx) :
    IsReal (val_main_v2 (F := Ideal) A j) := by
  rw [val_main_v2_apply]; exact h _

theorem real_v5 (A : (⟨S131072, .f32⟩ : BufTy).Contents (Elt Ideal)) (h : ∀ i, IsReal (A i)) (j : S8192.Idx) :
    IsReal (val_main_v5 (F := Ideal) A j) := by
  rw [val_main_v5_apply, val_main_v4_apply, val_main_v3_apply]; exact h _

end Reference

end Cert.Prologue

end
-- ==== Proof.Claims.lean ====
/-
  The five claims.

  The three frames are the generated ones (the reference's is its generated run with the result
  dropped); nothing was rewritten by the idealization, so `preserves` asks nothing.

  For the value claim: under the precondition every entry of every argument is a real number, and
  both programs begin by the same regroupings of the arguments, which only move entries; so the
  regrouped clouds, scales and time weights are arrays of reals `xr`, `yr`, `wr`, `tr`.  The kernel's
  result is then the loss in its first spelling (the result column read block by block, summed and
  divided once), the reference's the loss in its second spelling, and the two spellings are one real
  number: the norms identity `|u|² + |v|² - 2⟨u,v⟩ = Σ (u - v)²` (a sum of squares, so the clamp at
  zero does nothing), `· (1/64) = / 64`, and `256 · 8192 = 2097152`.
-/
import proofs.«140871_j44152263803555_2_alg».proof.Defs
import proofs.«140871_j44152263803555_2_alg».proof.Proof.Gen.Kernel.Frame
import proofs.«140871_j44152263803555_2_alg».proof.Proof.Gen.KernelIdeal.Frame
import proofs.«140871_j44152263803555_2_alg».proof.Proof.Gen.ReferenceIdeal.Run
import proofs.«140871_j44152263803555_2_alg».proof.Proof.Gen.ReferenceIdeal.Read
import proofs.«140871_j44152263803555_2_alg».proof.Proof.Gen.Pre_finite_inputs
import proofs.«140871_j44152263803555_2_alg».proof.Proof.KernelArray
import proofs.«140871_j44152263803555_2_alg».proof.Proof.RefValue
import proofs.«140871_j44152263803555_2_alg».proof.Proof.RealAlgebra
import proofs.«140871_j44152263803555_2_alg».proof.Proof.FiniteInputs
import proofs.«140871_j44152263803555_2_alg».proof.Proof.Prologue

noncomputable section

open Idealize.ShloMosaic Idealize.ShloMosaic.TcCoe Idealize.SL.Sem

namespace Cert.Proof.Claims

open Idealize.ShloMosaic.ValueIdx Cert.Finite

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- A real entry is the cast of its real part. -/
theorem coe_toReal_of_isReal {x : EReal} (h : IsReal x) : x = ((x.toReal : ℝ) : EReal) := by
  obtain ⟨r, rfl⟩ := h
  rw [EReal.toReal_coe]

theorem algebraic : Cert.algebraic_KernelIdeal_ReferenceIdeal := by
  intro m ρ m' ρ' hpre hagree
  -- every entry of every argument is real, on every device
  have hreal := fun c : Dev Cert.KernelIdeal.nD => Cert.FiniteInputs.real_of_pre _ _ _ _ (hpre c)
  -- the regrouped arguments, as arrays of reals
  have hx : ∀ (c : Dev Cert.KernelIdeal.nD) (g : Fin 8192) (i : Fin 16) (k : Fin 64), _ = _ := fun c g i k =>
    coe_toReal_of_isReal (Cert.Prologue.real_v0 _ (hreal c).1 (ix3 g i k))
  have hy : ∀ (c : Dev Cert.KernelIdeal.nD) (g : Fin 8192) (i : Fin 16) (k : Fin 64), _ = _ := fun c g i k =>
    coe_toReal_of_isReal (Cert.Prologue.real_v1 _ (hreal c).2.1 (ix3 g i k))
  have hw : ∀ (c : Dev Cert.KernelIdeal.nD) (g : Fin 8192) (i : Fin 16), _ = _ := fun c g i =>
    coe_toReal_of_isReal (Cert.Prologue.real_v2 _ (hreal c).2.2.1 (ix2 g i))
  have ht : ∀ (c : Dev Cert.KernelIdeal.nD) (g : Fin 8192), _ = _ := fun c g =>
    coe_toReal_of_isReal (Cert.Prologue.real_v5 _ (hreal c).2.2.2 (ix1 g))
  refine ⟨fun c _ => ((Cert.Spec.lossK
      (fun g i k => (Cert.ReferenceIdeal.Read.val_main_v0 (F := Ideal) (m ((c.tc : Thread Cert.KernelIdeal.nD Cert.KernelIdeal.τ).loc Cert.KernelIdeal.main_arg0)) (ix3 g i k)).toReal)
      (fun g i k => (Cert.ReferenceIdeal.Read.val_main_v1 (F := Ideal) (m ((c.tc : Thread Cert.KernelIdeal.nD Cert.KernelIdeal.τ).loc Cert.KernelIdeal.main_arg1)) (ix3 g i k)).toReal)
      (fun g i => (Cert.ReferenceIdeal.Read.val_main_v2 (F := Ideal) (m ((c.tc : Thread Cert.KernelIdeal.nD Cert.KernelIdeal.τ).loc Cert.KernelIdeal.main_arg2)) (ix2 g i)).toReal)
      (fun g => (Cert.ReferenceIdeal.Read.val_main_v5 (F := Ideal) (m ((c.tc : Thread Cert.KernelIdeal.nD Cert.KernelIdeal.τ).loc Cert.KernelIdeal.main_arg3)) (ix1 g)).toReal) : ℝ) : EReal), ?_, ?_⟩
  · -- the kernel: the frame run's post, read at the result and at the arguments
    refine (θ_run Cert.KernelIdeal.defs _ _).mono (fun r h c => ⟨?_, ?_, ?_, ?_, ?_⟩) (Cert.KernelIdeal.Gen.run_main m ρ)
    · refine ((h c).2 Cert.KernelIdeal.main_v9 (Pipeline.mem_restRefs_of Cert.KernelIdeal.main_v9 (by decide) (by decide))).trans ?_
      exact Cert.KernelIdeal.Array.tail_value m _ _ _ _ c
        (fun g i k => (congrFun (Cert.Prologue.V_v0_eq m c) _).trans (hx c g i k))
        (fun g i k => (congrFun (Cert.Prologue.V_v1_eq m c) _).trans (hy c g i k))
        (fun g i => (congrFun (Cert.Prologue.V_v2_eq m c) _).trans (hw c g i))
        (fun g => (Cert.Prologue.V_v6_apply m c g).trans (ht c g))
    · exact ((h c).2 Cert.KernelIdeal.main_arg0 (Pipeline.mem_restRefs_of Cert.KernelIdeal.main_arg0 (by decide) (by decide))).trans (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans (Cert.KernelIdeal.Gen.W_main_arg2 m (Cert.KernelIdeal.Gen.dats m) c)
    · exact ((h c).2 Cert.KernelIdeal.main_arg3 (Pipeline.mem_restRefs_of Cert.KernelIdeal.main_arg3 (by decide) (by decide))).trans (Cert.KernelIdeal.Gen.W_main_arg3 m (Cert.KernelIdeal.Gen.dats m) c)
  · -- the reference: its generated run, its result read at real arguments
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v60_eq, (hagree c).1, (hagree c).2.1, (hagree c).2.2.1, (hagree c).2.2.2]
    funext i
    exact (Cert.ReferenceIdeal.RefValue.ref_value _ _ _ _ _ _ _ _ (hx c) (hy c) (hw c) (ht c) i).trans
      (congrArg (fun r : ℝ => (r : EReal)) (Cert.Spec.lossK_eq_lossR _ _ _ _).symm)

end Cert.Proof.Claims

end
-- ==== Proof.lean ====
/- The kernel and its reference compute one loss.

   Both programs regroup 131072 particles of 64 coordinates into 8192 groups of sixteen, in two
   clouds, with one scale per particle and one time weight per group.  For every pair of particles
   of a group they take a Laplace kernel `exp (-s · max d ε / 64)` of the distance `d`, add the kernels
   within each cloud, subtract twice the kernel across the clouds, sum over the 256 pairs, weight by
   the group's time weight and average over groups and pairs.

   The kernel takes the squared distance by the norms identity `|u|² + |v|² - 2⟨u,v⟩` (three batched
   matrix products), clamps it at zero, multiplies by the reciprocal `1/64`, writes one number per
   group, and the host sums the 8192 numbers and divides by `2097152`.  The reference sums squared
   differences, divides by `64`, by `256` per group and by `8192` at the end.  Over the real numbers
   these are the same: the norms identity holds, a sum of squares is not negative, and
   `256 · 8192 = 2097152`.  Under the precondition every input is a real number, every intermediate
   value of either program is then a real number, and the two results are equal as extended reals.

   The modules: `Spec` (the loss over the reals, in both spellings), `RealAlgebra` (the spellings
   agree), `Consts` (the float words as reals), `FiniteInputs` (the precondition decoded), `Prologue`
   (the shared regroupings), `KernelBody` (one group's value in the kernel body), `KernelBlocks` and
   `KernelArray` (the result column from its 32 blocks, and the host's final sum), `RefValue` (the
   reference's result), `Claims` (the five claims). -/
import proofs.«140871_j44152263803555_2_alg».proof.Defs
import proofs.«140871_j44152263803555_2_alg».proof.Proof.Gen.Kernel
import proofs.«140871_j44152263803555_2_alg».proof.Proof.Gen.KernelIdeal
import proofs.«140871_j44152263803555_2_alg».proof.Proof.Gen.ReferenceIdeal
import proofs.«140871_j44152263803555_2_alg».proof.Proof.Gen.Pre_finite_inputs
import proofs.«140871_j44152263803555_2_alg».proof.Proof.Gen.ReferenceIdeal.Run
import proofs.«140871_j44152263803555_2_alg».proof.Proof.Gen.ReferenceIdeal.Read
import proofs.«140871_j44152263803555_2_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
